-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1x1x128 : Shape := ⟨3, ![1, 1, 128]⟩
abbrev S1000000x128 : Shape := ⟨2, ![1000000, 128]⟩
abbrev S_ : Shape := ⟨0, ![]⟩

class Facts : Prop where
  bcast_S_S1x1x128 : S_.BroadcastsInDim S1x1x128 (![] : Fin 0 → Fin S1x1x128.rank)
  reducesTo_S1x1x128_S_d0_1_2 : S1x1x128.ReducesTo [0, 1, 2] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1x1x128 .f32) (main_arg2 : FVec F S1000000x128 .f32) : IVec S_ 1 :=
  let main_v0 : FVec F S1x1x128 .f32 := Host.absf main_arg1
  let main_cst : FVec F S_ .f32 := constant S_ .f32 0x7F800000#32
  let main_v1 : FVec F S1x1x128 .f32 := broadcastInDim S1x1x128 ![] bcast_S_S1x1x128 main_cst
  let main_v2 : IVec S1x1x128 1 := cmpf .olt main_v0 main_v1
  let main_c : IVec S_ 1 := constantI S_ 1 1#1
  let main_v3 : IVec S_ 1 := (fun x v => Host.reduce IntOp.andi x v reducesTo_S1x1x128_S_d0_1_2 h_S_) main_v2 main_c
  let main_v4 : FVec F S1000000x128 .f32 := Host.absf main_arg2
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 999999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384 : Shape := ⟨1, ![16384]⟩
abbrev S1x1x128 : Shape := ⟨3, ![1, 1, 128]⟩
abbrev S1000000x128 : Shape := ⟨2, ![1000000, 128]⟩
abbrev S1x1x2097152 : Shape := ⟨3, ![1, 1, 2097152]⟩
abbrev S512 : Shape := ⟨1, ![512]⟩
abbrev S512x128 : Shape := ⟨2, ![512, 128]⟩
abbrev S_ : Shape := ⟨0, ![]⟩
abbrev S16384x128 : Shape := ⟨2, ![16384, 128]⟩

abbrev nBuf : Table → Nat
  | .hbm => 5
  | .local .scVector .vmem => 2
  | _ => 0

abbrev bufTy : (tb : Table) → Fin (nBuf tb) → BufTy
  | .hbm, ⟨0, _⟩ => ⟨S16384, .i32⟩
  | .hbm, ⟨1, _⟩ => ⟨S1x1x128, .f32⟩
  | .hbm, ⟨2, _⟩ => ⟨S1000000x128, .f32⟩
  | .hbm, ⟨3, _⟩ => ⟨S1x1x2097152, .f32⟩
  | .hbm, ⟨4, _⟩ => ⟨S1x1x128, .f32⟩
  | .local .scVector .vmem, ⟨0, _⟩ => ⟨S512, .i32⟩
  | .local .scVector .vmem, ⟨1, _⟩ => ⟨S512x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_arg2_scv : Ref sig .scVector := ⟨.hbm, 2, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_5_r2 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1000000x128_S1000000x128_0_0 : ∀ a, (![0, 0] : Fin 2 → Nat) a + S1000000x128.size a ≤ S1000000x128.size a
  gathers_S1000000x128_S512x128 : S1000000x128.Gathers 0 S512x128
  reshapes_S1x1x2097152_S16384x128 : S16384x128.numel = S1x1x2097152.numel ∧ (2 ≤ S1x1x2097152.rank ∧ 2 ≤ S16384x128.rank)
  hcc0_scratch2 : 0 + S_.numel ≤ 4
  hcc0_scoped0 : 1 + S_.numel ≤ 4
  hcc0_scoped1 : 2 + S_.numel ≤ 4
  hcc0_scoped2 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ a, (k0_off2 i) a + S512x128.size a ≤ S16384x128.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2

class Facts : Prop extends Facts₀ where

variable [Facts]
-- ==== ReferenceIdeal.lean ====
abbrev S16384 : Shape := ⟨1, ![16384]⟩
abbrev S1x1x128 : Shape := ⟨3, ![1, 1, 128]⟩
abbrev S1000000x128 : Shape := ⟨2, ![1000000, 128]⟩
abbrev S1x16384 : Shape := ⟨2, ![1, 16384]⟩
abbrev S_ : Shape := ⟨0, ![]⟩
abbrev S1x16384x1 : Shape := ⟨3, ![1, 16384, 1]⟩
abbrev S1 : Shape := ⟨1, ![1]⟩
abbrev S1x1x1 : Shape := ⟨3, ![1, 1, 1]⟩
abbrev S1x16384x128 : Shape := ⟨3, ![1, 16384, 128]⟩
abbrev S1x1x2097152 : Shape := ⟨3, ![1, 1, 2097152]⟩

abbrev nBuf : Space → Nat
  | .hbm => 28
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1x1x128, .f32⟩
  | .hbm, ⟨2, _⟩ => ⟨S1000000x128, .f32⟩
  | .hbm, ⟨3, _⟩ => ⟨S1x16384, .i32⟩
  | .hbm, ⟨4, _⟩ => ⟨S_, .i32⟩
  | .hbm, ⟨5, _⟩ => ⟨S1x16384, .i32⟩
  | .hbm, ⟨6, _⟩ => ⟨S1x16384, .i1⟩
  | .hbm, ⟨7, _⟩ => ⟨S_, .i32⟩
  | .hbm, ⟨8, _⟩ => ⟨S1x16384, .i32⟩
  | .hbm, ⟨9, _⟩ => ⟨S1x16384, .i32⟩
  | .hbm, ⟨10, _⟩ => ⟨S1x16384, .i32⟩
  | .hbm, ⟨11, _⟩ => ⟨S1x16384x1, .i32⟩
  | .hbm, ⟨12, _⟩ => ⟨S1, .i32⟩
  | .hbm, ⟨13, _⟩ => ⟨S_, .i32⟩
  | .hbm, ⟨14, _⟩ => ⟨S1x16384x1, .i32⟩
  | .hbm, ⟨15, _⟩ => ⟨S1x16384x1, .i1⟩
  | .hbm, ⟨16, _⟩ => ⟨S1x1x1, .i32⟩
  | .hbm, ⟨17, _⟩ => ⟨S1x16384x1, .i32⟩
  | .hbm, ⟨18, _⟩ => ⟨S1x16384x1, .i1⟩
  | .hbm, ⟨19, _⟩ => ⟨S1x16384x1, .i1⟩
  | .hbm, ⟨20, _⟩ => ⟨S_, .i1⟩
  | .hbm, ⟨21, _⟩ => ⟨S1x16384, .i1⟩
  | .hbm, ⟨22, _⟩ => ⟨S1x16384x128, .f32⟩
  | .hbm, ⟨23, _⟩ => ⟨S1x16384x128, .i1⟩
  | .hbm, ⟨24, _⟩ => ⟨S_, .f32⟩
  | .hbm, ⟨25, _⟩ => ⟨S1x16384x128, .f32⟩
  | .hbm, ⟨26, _⟩ => ⟨S1x16384x128, .f32⟩
  | .hbm, ⟨27, _⟩ => ⟨S1x1x2097152, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S1x16384x1_0_1 : S1x16384.BroadcastsInDim S1x16384x1 (![0, 1] : Fin 2 → Fin S1x16384x1.rank)
  bcast_S_S1x16384x1 : S_.BroadcastsInDim S1x16384x1 (![] : Fin 0 → Fin S1x16384x1.rank)
  bcast_S1_S1x1x1_2 : S1.BroadcastsInDim S1x1x1 (![2] : Fin 1 → Fin S1x1x1.rank)
  bcast_S1x1x1_S1x16384x1_0_1_2 : S1x1x1.BroadcastsInDim S1x16384x1 (![0, 1, 2] : Fin 3 → Fin S1x16384x1.rank)
  reducesTo_S1x16384x1_S1x16384_d2 : S1x16384x1.ReducesTo [2] S1x16384
  h_S_ : 0 < S_.numel
  bcast_S1x16384_S1x16384x128_0_1 : S1x16384.BroadcastsInDim S1x16384x128 (![0, 1] : Fin 2 → Fin S1x16384x128.rank)
  bcast_S_S1x16384x128 : S_.BroadcastsInDim S1x16384x128 (![] : Fin 0 → Fin S1x16384x128.rank)
  shapeCasts_S1x16384x128_S1x1x2097152 : S1x16384x128.ShapeCasts S1x1x2097152
  gather_S1000000x128_S1x16384x1_S1x16384x128_2_0_n_n_0_2_1128_wf : GatherDims.WF S1000000x128 S1x16384x1 S1x16384x128 [2] [0] [] [0] [] 2 ![1, 128]

variable [Facts₀]

def gather_S1000000x128_S1x16384x1_S1x16384x128_2_0_n_n_0_2_1128 : GatherDims S1000000x128 S1x16384x1 S1x16384x128 where
  offsetDims := [2]
  collapsedSliceDims := [0]
  operandBatchingDims := []
  startIndicesBatchingDims := []
  startIndexMap := [0]
  indexVectorDim := 2
  sliceSizes := ![1, 128]
  wf := gather_S1000000x128_S1x16384x1_S1x16384x128_2_0_n_n_0_2_1128_wf

class Facts : Prop extends Facts₀ where

variable [Facts]
-- ==== Proof.Spec.lean ====
/-
  What both programs compute, stated over the argument arrays alone: an embedding lookup laid out flat.
  The result has 16384 · 128 entries; entry `n` is column `n % 128` of the table row named by index
  number `n / 128`. The row name is read as a natural number; for names below the table's 1000000 rows
  (the only ones the claim is about) reducing it modulo 1000000 changes nothing, and it makes the
  function total.
-/
import Idealize.ShloMosaic.Lib.ValueIdx
import Idealize.ShloMosaic.PureOps

noncomputable section

namespace Cert.Spec

open Idealize.ShloMosaic Idealize.ShloMosaic.ValueIdx

/-- The flat position of an entry of the result. -/
theorem pos_lt (j : (⟨3, ![1, 1, 2097152]⟩ : Shape).Idx) : (j 2).val < 2097152 := (j 2).isLt

/-- Which of the 16384 looked-up rows a flat position lies in. -/
def rowOf (j : (⟨3, ![1, 1, 2097152]⟩ : Shape).Idx) : Fin 16384 :=
  ⟨(j 2).val / 128, by have := pos_lt j; omega⟩

/-- Which of the 128 columns a flat position lies in. -/
def colOf (j : (⟨3, ![1, 1, 2097152]⟩ : Shape).Idx) : Fin 128 :=
  ⟨(j 2).val % 128, Nat.mod_lt _ (by decide)⟩

/-- The table row an index word names. -/
def rowName (w : BitVec 32) : Fin 1000000 := ⟨w.toNat % 1000000, Nat.mod_lt _ (by decide)⟩

/-- Every index word names a row of the table. -/
def InRange (idx : IVec ⟨1, ![16384]⟩ 32) : Prop := ∀ j, (idx j).toNat < 1000000

/-- The lookup, flat: entry `n` is `tab[idx[n / 128], n % 128]`. -/
def G {F : FTy → Type} (idx : IVec ⟨1, ![16384]⟩ 32) (tab : FVec F ⟨2, ![1000000, 128]⟩ .f32) :
    FVec F ⟨3, ![1, 1, 2097152]⟩ .f32 :=
  fun j => tab (ix2 (rowName (idx (ix1 (rowOf j)))) (colOf j))

theorem rowName_val {w : BitVec 32} (h : w.toNat < 1000000) : (rowName w).val = w.toNat := Nat.mod_eq_of_lt h

end Cert.Spec

end
-- ==== Proof.PreRange.lean ====
/-
  From the certificate's precondition to the range of the index words. The precondition is the
  conjunction of three tests, each a reduction by `and` over a whole array; only the third matters
  here: every index word w satisfies 0 ≤ w and w ≤ 999999 as signed 32-bit integers. A word that is
  signed-nonnegative has its top bit clear, so its signed and unsigned readings agree, and the upper
  bound then says that as a natural number it is below 1000000.
-/
import proofs.«206963_g37203006718649_cont_8to1_b_574_16_alg».proof.Pre_input_domain
import proofs.«206963_g37203006718649_cont_8to1_b_574_16_alg».proof.Proof.Spec
import Idealize.ShloMosaic.Lib.ReduceAll

namespace Cert.Spec

open Idealize.ShloMosaic Idealize.ShloMosaic.ValueIdx

/-- A rank-0 array has one index. -/
instance subsingleton_scalar_idx : Subsingleton (Cert.Pre_input_domain.S_).Idx :=
  ⟨fun a b => funext fun d => d.elim0⟩

/-- The precondition holding means every index word, read as a natural number, is below 1000000. -/
theorem inRange_of_pre {F : FTy → Type} [FloatOps F] [Cert.Pre_input_domain.Facts]
    (a0 : IVec ⟨1, ![16384]⟩ 32) (a1 : FVec F ⟨3, ![1, 1, 128]⟩ .f32) (a2 : FVec F ⟨2, ![1000000, 128]⟩ .f32)
    (h : Cert.Pre_input_domain.fn (F := F) a0 a1 a2 = fun _ => 1#1) : Cert.Spec.InRange a0 := by
  intro j
  have h0 := congrFun h ValueIdx.ix0
  dsimp only [Cert.Pre_input_domain.fn] at h0
  -- the third conjunct: the reduction by `and` of the two range tests over all 16384 words
  have h1 : Host.reduce IntOp.andi _ _ _ _ ValueIdx.ix0 = 1#1 := (IntOp.andi_eq_one.1 h0).2
  -- at word j both tests hold
  have h2 := Host.reduce_andi_all _ _ _ _ _ h1 j
  have h3 := IntOp.andi_eq_one.1 h2
  have hge : (0#32 : BitVec 32).toInt ≤ (a0 j).toInt := IntOp.cmpi_sge.1 h3.1
  have hle : (a0 j).toInt ≤ (999999#32 : BitVec 32).toInt := IntOp.cmpi_sle.1 h3.2
  have e0 : (0#32 : BitVec 32).toInt = 0 := by decide
  have e1 : (999999#32 : BitVec 32).toInt = 999999 := by decide
  have ec := BitVec.toInt_eq_toNat_cond (a0 j)
  have hlt := (a0 j).isLt
  rw [e0] at hge
  rw [e1] at hle
  split at ec <;> omega

end Cert.Spec
-- ==== Proof.KSetup.lean ====
/-
  The lookup kernel as its launch sees it, and what each of its 32 tiles is handed.
  Tile `(c, s)` (SparseCore `c` of 2, vector subcore `s` of 16) has number `w = 2 s + c` and owns the 512 consecutive
  index words `512 w … 512 w + 511` and the matching 512 rows of the result (read as a 16384 × 128 matrix laid out flat).
  Every tile reads the whole table, so the table goes out as 32 read shares; tile `(0, 0)` alone copies the second
  argument into the second result, so it alone is handed those two arrays. What a tile hands back is its slab of the
  result holding the looked-up rows: the ONE whole-array function `Cert.Spec.G` of the arguments, on that slab.
-/
import proofs.«206963_g37203006718649_cont_8to1_b_574_16_alg».proof.Defs
import proofs.«206963_g37203006718649_cont_8to1_b_574_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.Kernel
import proofs.«206963_g37203006718649_cont_8to1_b_574_16_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index words, the second argument, the table; the flat result and the second result. -/
abbrev iLoc (d : Dev nD) : Loc nD τ sig := (SparseCore.T d).loc main_arg0
abbrev hLoc (d : Dev nD) : Loc nD τ sig := (SparseCore.T d).loc main_arg1
abbrev xLoc (d : Dev nD) : Loc nD τ sig := (SparseCore.T d).loc main_arg2
abbrev oLoc (d : Dev nD) : Loc nD τ sig := (SparseCore.T d).loc main_v0_0
abbrev gLoc (d : Dev nD) : Loc nD τ sig := (SparseCore.T d).loc main_v0_1

local notation "xV" => (Memref.whole Cert.Kernel.main_arg2_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S16384 EltTy.i32)
local notation "hV" => (Memref.whole Cert.Kernel.main_arg1_scv : Memref Cert.Kernel.sig Kind.scVector Space.hbm Cert.Kernel.S1x1x128 EltTy.f32)
local notation "oV" => (Memref.whole Cert.Kernel.main_v0_0_scv : Memref Cert.Kernel.sig Kind.scVector Space.hbm Cert.Kernel.S1x1x2097152 EltTy.f32)
local notation "gV" => (Memref.whole Cert.Kernel.main_v0_1_scv : Memref Cert.Kernel.sig Kind.scVector Space.hbm Cert.Kernel.S1x1x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

/-! ## A tile's slabs, as the kernel slices them -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same from literal-size coordinates. -/
abbrev pt (c : Fin 2) (s : Fin 16) : grid0.Coords := coordsV c s

abbrev cV (L : grid0.Coords) : Fin τ.nSC := (L 0).castLE hcore0
abbrev jV (L : grid0.Coords) : Fin τ.nSub := (L 1).castLE hsub0

/-- The tile's 512 index words, the whole table, the result read as a matrix, and the tile's 512 rows of it. -/
abbrev iRowK (L : grid0.Coords) : Memref sig .scVector .hbm S512 .i32 :=
  (iV).slice (Rect.unit (s := S16384) (k0_off1 L) S512.size (k0_off1_inb L)) (fun _ => rfl)
abbrev xAllK : Memref sig .scVector .hbm S1000000x128 .f32 :=
  (xV).slice (Rect.unit (s := S1000000x128) ![0, 0] S1000000x128.size inb_S1000000x128_S1000000x128_0_0) (fun _ => rfl)
abbrev oMatK : Memref sig .scVector .hbm S16384x128 .f32 :=
  (oV).reshape S16384x128 reshapes_S1x1x2097152_S16384x128.1 reshapes_S1x1x2097152_S16384x128.2 (Memref.isWhole_whole _).contiguous
abbrev oRowK (L : grid0.Coords) : Memref sig .scVector .hbm S512x128 .f32 :=
  (oMatK).slice (Rect.unit (s := S16384x128) (k0_off2 L) S512x128.size (k0_off2_inb L)) (fun _ => rfl)

/-- The elements of the index array, and of the flat result, that tile `L` owns. -/
abbrev iSet (L : grid0.Coords) : Finset S16384.Idx := (iRowK L).view.set
abbrev oSet (L : grid0.Coords) : Finset S1x1x2097152.Idx := (oRowK L).view.set

/-- Whether tile `L` is the one that copies the second argument: the kernel's own test of its number against zero. -/
abbrev isFirst (L : grid0.Coords) : Prop :=
  Scalar.cmpi .ne (Scalar.extui (Scalar.cmpi .eq (Scalar.addi (Scalar.muli (BitVec.ofNat 32 (L 1).val) 2#32) (BitVec.ofNat 32 (L 0).val)) 0#32)) 0#32 = 1#1

theorem isFirst_iff : ∀ L : grid0.Coords, isFirst L ↔ ((L 0).val = 0 ∧ (L 1).val = 0) := by decide +kernel

/-! ## Shares of the table: one read share per tile, the remainder kept by the TensorCore -/

/-- Tile `(c, s)`'s share of the table. -/
abbrev xq (c : Fin 2) (s : Fin 16) : PosShare TreeShare := Transfers.shareTok fullShare 32 (finProdFinEquiv (c, s))

variable [FloatOps F]

/-! ## What the result holds at the end -/

/-- The flat result: the looked-up rows end to end. -/
abbrev Gout (d : Dev nD) : Buf (Elt F) (oLoc d) := Cert.Spec.G (F := F) (m (iLoc d)) (m (xLoc d))

/-- What the proof asks of the launch memory: every index word names a row of the table. -/
def PreOK : Prop := ∀ d : Dev nD, Cert.Spec.InRange (m (iLoc d))

/-! ## What the handshakes carry -/

abbrev iRowPts (d : Dev nD) (L : grid0.Coords) : sProp 𝕄 := iLoc d ↦[iSet L]{fullShare} m (iLoc d)
abbrev xShPts (d : Dev nD) (c : Fin 2) (s : Fin 16) : sProp 𝕄 := xLoc d ↦{xq c s} m (xLoc d)
abbrev oRowPts (d : Dev nD) (L : grid0.Coords) (f : Buf (Elt F) (oLoc d)) : sProp 𝕄 := oLoc d ↦[oSet L]{fullShare} f

/-- The second argument and the second result, for the one tile that copies: before, and after. -/
def hidBefore (d : Dev nD) (L : grid0.Coords) : sProp 𝕄 :=
  if isFirst L then iprop((hLoc d ↦{fullShare} m (hLoc d)) ∗ gLoc d ↦{fullShare} m (gLoc d)) else iprop(emp)
def hidAfter (d : Dev nD) (L : grid0.Coords) : sProp 𝕄 :=
  if isFirst L then iprop((hLoc d ↦{fullShare} m (hLoc d)) ∗ gLoc d ↦{fullShare} (m (hLoc d) : Buf (Elt F) (gLoc d))) else iprop(emp)

instance hidBefore_storable (d : Dev nD) (L : grid0.Coords) : BI.Storable (upEmb : UEmb _ 𝕄) (hidBefore m d L) := by
  unfold hidBefore; split <;> infer_instance
instance hidAfter_storable (d : Dev nD) (L : grid0.Coords) : BI.Storable (upEmb : UEmb _ 𝕄) (hidAfter m d L) := by
  unfold hidAfter; split <;> infer_instance

/-- What tile `(c, s)` takes, and what it brings back. -/
abbrev goL (d : Dev nD) (c : Fin 2) (s : Fin 16) : sProp 𝕄 :=
  iprop(iRowPts m d (pt c s) ∗ xShPts m d c s ∗ oRowPts d (pt c s) (m (oLoc d)) ∗ hidBefore m d (pt c s))
abbrev tdL (d : Dev nD) (c : Fin 2) (s : Fin 16) : sProp 𝕄 :=
  iprop(iRowPts m d (pt c s) ∗ xShPts m d c s ∗ oRowPts d (pt c s) (Gout m d) ∗ hidAfter m d (pt c s))

/-- The one call: a SparseCore takes its sixteen tiles' operands and brings back their results; the kernel's proof
    consumes nothing of the launch's. -/
def P : (K (F := F)).Pay (nD := nD) (Val := Elt F) (Name := ℕ) (U := UU) where
  st := fun q d c => match q with | 0 => bigSep Finset.univ fun s : Fin 16 => goL m d (Fin.cast nCore_zero c) s
  dn := fun q d c => match q with | 0 => bigSep Finset.univ fun s : Fin 16 => tdL m d (Fin.cast nCore_zero c) s
  go := fun q d c i => match q with | 0 => goL m d (Fin.cast nCore_zero c) (Fin.cast nSub_zero i)
  td := fun q d c i => match q with | 0 => tdL m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goL m d (Fin.cast nCore_zero c) s))
  dn q d c := match q with
    | 0 => (inferInstance : BI.Storable (upEmb : UEmb _ 𝕄) (bigSep Finset.univ fun s : Fin 16 => tdL m d (Fin.cast nCore_zero c) s))
  go q d c i := match q with
    | 0 => (inferInstance : BI.Storable (upEmb : UEmb _ 𝕄) (goL m d (Fin.cast nCore_zero c) (Fin.cast nSub_zero i)))
  td q d c i := match q with
    | 0 => (inferInstance : BI.Storable (upEmb : UEmb _ 𝕄) (tdL m d (Fin.cast nCore_zero c) (Fin.cast nSub_zero i)))

end Cert.Kernel.Hand

end
-- ==== Proof.KSplit.lean ====
/-
  How the arrays divide among the 32 tiles and come together again. The index array is the disjoint union of the
  tiles' slabs of 512 words (tile `(c, s)` starts at word `1024 s + 512 c`); the flat result, read as a 16384 × 128
  matrix, is the disjoint union of their slabs of 512 rows; the table is handed out as 32 read shares beside a
  remainder; and of a family that gives something to the first tile only, the whole is that something.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KSetup
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.Kernel
import proofs.«206963_g37203006718649_cont_8to1_b_574_16_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg2_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S16384 EltTy.i32)
local notation "hV" => (Memref.whole Cert.Kernel.main_arg1_scv : Memref Cert.Kernel.sig Kind.scVector Space.hbm Cert.Kernel.S1x1x128 EltTy.f32)
local notation "oV" => (Memref.whole Cert.Kernel.main_v0_0_scv : Memref Cert.Kernel.sig Kind.scVector Space.hbm Cert.Kernel.S1x1x2097152 EltTy.f32)
local notation "gV" => (Memref.whole Cert.Kernel.main_v0_1_scv : Memref Cert.Kernel.sig Kind.scVector Space.hbm Cert.Kernel.S1x1x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

/-! ## The slabs are pairwise disjoint and cover -/

omit m in
theorem pair_ne {p p' : Fin 2 × Fin 16} (h : p ≠ p') : ¬ (p.1.val = p'.1.val ∧ p.2.val = p'.2.val) :=
  fun ⟨h1, h2⟩ => h (Prod.ext (Fin.ext h1) (Fin.ext h2))

omit m in
theorem iSet_eq (L : grid0.Coords) : iSet L = (Rect.unit (s := S16384) (k0_off1 L) S512.size (k0_off1_inb L)).set := by
  show ((View.whole (main_arg0_scv : Ref sig .scVector)).slice _).set = _
  rw [View.set_slice]; exact Finset.map_refl

omit m in
theorem iSets_disjoint : ∀ p ∈ (Finset.univ : Finset (Fin 2 × Fin 16)), ∀ p' ∈ (Finset.univ : Finset (Fin 2 × Fin 16)), p ≠ p' →
    Disjoint (iSet (pt p.1 p.2)) (iSet (pt p'.1 p'.2)) := fun p _ p' _ h => by
  rw [iSet_eq, iSet_eq]
  refine Rect.unit_disjoint (0 : Fin 1) ?_
  rw [k0_off1_eq, k0_off1_eq]
  have hn := pair_ne h
  have h1 := p.1.isLt; have h2 := p.2.isLt; have h3 := p'.1.isLt; have h4 := p'.2.isLt
  show 1024 * p.2.val + 512 * p.1.val + 512 ≤ 1024 * p'.2.val + 512 * p'.1.val ∨ 1024 * p'.2.val + 512 * p'.1.val + 512 ≤ 1024 * p.2.val + 512 * p.1.val
  omega

omit m in
theorem iSets_cover : (Finset.univ : Finset (Fin 2 × Fin 16)).biUnion (fun p => iSet (pt p.1 p.2)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 512 / 2, by omega⟩), ?_⟩
  rw [iSet_eq, Rect.mem_set_unit]
  intro a
  obtain rfl : a = 0 := Subsingleton.elim _ _
  rw [k0_off1_eq]
  show 1024 * ((j 0).val / 512 / 2) + 512 * ((j 0).val / 512 % 2) ≤ (j 0).val ∧ (j 0).val < 1024 * ((j 0).val / 512 / 2) + 512 * ((j 0).val / 512 % 2) + 512
  omega

/-- The result read as a matrix: its placement in the flat array. -/
abbrev oMatView : View sig .scVector .hbm S16384x128 .f32 :=
  (View.whole (main_v0_0_scv : Ref sig .scVector)).reshape S16384x128 reshapes_S1x1x2097152_S16384x128.1

omit m in
theorem oSet_eq (L : grid0.Coords) : oSet L = (Rect.unit (s := S16384x128) (k0_off2 L) S512x128.size (k0_off2_inb L)).set.map oMatView.emb := by
  show (oMatView.slice _).set = _
  rw [View.set_slice]

omit m in
theorem oSets_disjoint : ∀ p ∈ (Finset.univ : Finset (Fin 2 × Fin 16)), ∀ p' ∈ (Finset.univ : Finset (Fin 2 × Fin 16)), p ≠ p' →
    Disjoint (oSet (pt p.1 p.2)) (oSet (pt p'.1 p'.2)) := fun p _ p' _ h => by
  rw [oSet_eq, oSet_eq, Finset.disjoint_map]
  refine Rect.unit_disjoint (0 : Fin 2) ?_
  rw [k0_off2_eq, k0_off2_eq]
  have hn := pair_ne h
  have h1 := p.1.isLt; have h2 := p.2.isLt; have h3 := p'.1.isLt; have h4 := p'.2.isLt
  show 1024 * p.2.val + 512 * p.1.val + 512 ≤ 1024 * p'.2.val + 512 * p'.1.val ∨ 1024 * p'.2.val + 512 * p'.1.val + 512 ≤ 1024 * p.2.val + 512 * p.1.val
  omega

omit m in
theorem oSets_cover : (Finset.univ : Finset (Fin 2 × Fin 16)).biUnion (fun p => oSet (pt p.1 p.2)) = Finset.univ := by
  ext j
  simp only [Finset.mem_biUnion, Finset.mem_univ, true_and, iff_true]
  have hmem : j ∈ oMatView.set := by
    rw [show oMatView.set = (View.whole (main_v0_0_scv : Ref sig .scVector)).set from View.set_reshape _ _, View.set_whole]; exact Finset.mem_univ _
  obtain ⟨y, -, rfl⟩ := Finset.mem_map.mp hmem
  have hy : (y 0).val < 16384 := (y 0).isLt
  have hy1 : (y 1).val < 128 := (y 1).isLt
  refine ⟨(⟨(y 0).val / 512 % 2, Nat.mod_lt _ (by decide)⟩, ⟨(y 0).val / 512 / 2, by omega⟩), ?_⟩
  rw [oSet_eq]
  refine Finset.mem_map_of_mem _ ?_
  rw [Rect.mem_set_unit]
  intro a
  rw [k0_off2_eq]
  match a with
  | 0 =>
    show 1024 * ((y 0).val / 512 / 2) + 512 * ((y 0).val / 512 % 2) ≤ (y 0).val ∧ (y 0).val < 1024 * ((y 0).val / 512 / 2) + 512 * ((y 0).val / 512 % 2) + 512
    omega
  | 1 =>
    show 0 ≤ (y 1).val ∧ (y 1).val < 0 + 128
    omega

/-! ## The arrays as families over the tiles -/

omit m in
theorem iPts_fam (d : Dev nD) (f : Buf (Elt F) (iLoc d)) :
    (iLoc d ↦{fullShare} f : sProp 𝕄) = bigSep Finset.univ fun c : Fin 2 => bigSep Finset.univ fun s : Fin 16 => iLoc d ↦[iSet (pt c s)]{fullShare} f := by
  rw [← bigSep_univ_prod (fun p : Fin 2 × Fin 16 => (iLoc d ↦[iSet (pt p.1 p.2)]{fullShare} f : sProp 𝕄)),
    ← pointsTo_biUnion Finset.univ (ℓ := iLoc d) (fun p : Fin 2 × Fin 16 => iSet (pt p.1 p.2)) iSets_disjoint, iSets_cover]

omit m in
theorem oPts_fam (d : Dev nD) (f : Buf (Elt F) (oLoc d)) :
    (oLoc d ↦{fullShare} f : sProp 𝕄) = bigSep Finset.univ fun c : Fin 2 => bigSep Finset.univ fun s : Fin 16 => oLoc d ↦[oSet (pt c s)]{fullShare} f := by
  rw [← bigSep_univ_prod (fun p : Fin 2 × Fin 16 => (oLoc d ↦[oSet (pt p.1 p.2)]{fullShare} f : sProp 𝕄)),
    ← pointsTo_biUnion Finset.univ (ℓ := oLoc d) (fun p : Fin 2 × Fin 16 => oSet (pt p.1 p.2)) oSets_disjoint, oSets_cover]

omit m in
/-- The table: the remainder the TensorCore keeps, and one read share per tile. -/
theorem xPts_fam (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun s : Fin 16 => xLoc d ↦{xq c s} f) := by
  rw [← bigSep_univ_prod (fun p : Fin 2 × Fin 16 => (xLoc d ↦{xq p.1 p.2} f : sProp 𝕄)),
    ← bigSep_univ_equiv (finProdFinEquiv (m := 2) (n := 16)) (fun i : Fin (2 * 16) => (xLoc d ↦{Transfers.shareTok fullShare 32 i} f : sProp 𝕄))]
  exact Transfers.pointsTo_toks (ℓ := xLoc d) (S := Finset.univ) (f := f) fullShare 32

omit m in
theorem bigSep_emp' {I : Type} (s : Finset I) : (bigSep s fun _ => iprop(emp)) = (iprop(emp) : sProp 𝕄) := bigSep_emp_const s

omit m in
/-- A family that gives `X` to the first tile and nothing to the others is `X`. -/
theorem first_fam (X : sProp 𝕄) :
    (bigSep Finset.univ fun c : Fin 2 => bigSep Finset.univ fun s : Fin 16 => (if isFirst (pt c s) then X else iprop(emp))) = X := by
  rw [← bigSep_univ_prod (fun p : Fin 2 × Fin 16 => (if isFirst (pt p.1 p.2) then X else iprop(emp) : sProp 𝕄)),
    bigSep_univ_split ((0, 0) : Fin 2 × Fin 16), if_pos ((isFirst_iff _).mpr ⟨rfl, rfl⟩),
    bigSep_congr (Ψ := fun _ => (iprop(emp) : sProp 𝕄)) fun p hp => if_neg fun hf => by
      have := (isFirst_iff _).mp hf
      exact (Finset.mem_erase.mp hp).1 (Prod.ext (Fin.ext this.1) (Fin.ext this.2)),
    bigSep_emp']
  exact BI.equiv_iff.mp BI.sep_emp

end Cert.Kernel.Hand

end
-- ==== Proof.KValue.lean ====
/-
  What a tile leaves in its slab of the result, as a value. The index scratch holds the tile's 512 index words
  (word `k` of the scratch is word `1024 s + 512 c + k` of the index array); the gather puts row `idx[k]` of the table
  at row `k` of the row scratch; the write-out puts row `k`, column `h` of the scratch at row `1024 s + 512 c + k`,
  column `h` of the result read as a 16384 × 128 matrix, which is flat position `(1024 s + 512 c + k) · 128 + h`. So on
  the tile's slab the result is the lookup `Cert.Spec.G`: position `n` holds `tab[idx[n / 128], n % 128]`.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KSetup
import Idealize.ShloMosaic.Lib.Writes
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.Kernel
import proofs.«206963_g37203006718649_cont_8to1_b_574_16_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg2_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S16384 EltTy.i32)
local notation "hV" => (Memref.whole Cert.Kernel.main_arg1_scv : Memref Cert.Kernel.sig Kind.scVector Space.hbm Cert.Kernel.S1x1x128 EltTy.f32)
local notation "oV" => (Memref.whole Cert.Kernel.main_v0_0_scv : Memref Cert.Kernel.sig Kind.scVector Space.hbm Cert.Kernel.S1x1x2097152 EltTy.f32)
local notation "gV" => (Memref.whole Cert.Kernel.main_v0_1_scv : Memref Cert.Kernel.sig Kind.scVector Space.hbm Cert.Kernel.S1x1x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

variable [FloatOps F]

section Value

variable (d : Dev nD) (L : grid0.Coords)

omit m [FloatOps F] in
/-- Where row `y 0`, column `y 1` of a tile's slab sits in the flat result. -/
theorem oRow_emb_val (y : S512x128.Idx) :
    (((oRowK L).view.emb y) 2).val = (k0_off2 L 0 + (y 0).val) * 128 + (y 1).val := by
  have hr := Shape.rowMajor_reshapeEquiv (s := S1x1x2097152) (s' := S16384x128) reshapes_S1x1x2097152_S16384x128.1
    ((Rect.unit (s := S16384x128) (k0_off2 L) S512x128.size (k0_off2_inb L)).emb y)
  rw [Shape.rowMajor_val_three, Shape.rowMajor_val_two] at hr
  have e0 : ((Shape.reshapeEquiv (s := S1x1x2097152) (s' := S16384x128) reshapes_S1x1x2097152_S16384x128.1
    ((Rect.unit (s := S16384x128) (k0_off2 L) S512x128.size (k0_off2_inb L)).emb y)) 0).val < 1 := Fin.isLt _
  have e1 : ((Shape.reshapeEquiv (s := S1x1x2097152) (s' := S16384x128) reshapes_S1x1x2097152_S16384x128.1
    ((Rect.unit (s := S16384x128) (k0_off2 L) S512x128.size (k0_off2_inb L)).emb y)) 1).val < 1 := Fin.isLt _
  have o1 : k0_off2 L 1 = 0 := by rw [k0_off2_eq]; rfl
  simp only [Rect.emb_apply] at hr
  show ((Shape.reshapeEquiv (s := S1x1x2097152) (s' := S16384x128) reshapes_S1x1x2097152_S16384x128.1
    ((Rect.unit (s := S16384x128) (k0_off2 L) S512x128.size (k0_off2_inb L)).emb y)) 2).val = _
  have hs : (Rect.unit (s := S16384x128) (k0_off2 L) S512x128.size (k0_off2_inb L)).stride = fun _ => 1 := rfl
  have ho : (Rect.unit (s := S16384x128) (k0_off2 L) S512x128.size (k0_off2_inb L)).off = k0_off2 L := rfl
  rw [hs, ho, o1] at hr
  show _ = (k0_off2 L 0 + (y 0).val) * 128 + (y 1).val
  generalize Shape.reshapeEquiv (s := S1x1x2097152) (s' := S16384x128) reshapes_S1x1x2097152_S16384x128.1
    ((Rect.unit (s := S16384x128) (k0_off2 L) S512x128.size (k0_off2_inb L)).emb y) = E at hr e0 e1 ⊢
  have hr' : ((E 0).val * 1 + (E 1).val) * 2097152 + (E 2).val = (k0_off2 L 0 + 1 * (y 0).val) * 128 + (0 + 1 * (y 1).val) := hr
  omega

omit m [FloatOps F] in
/-- Where word `k` of a tile's slab sits in the index array. -/
theorem iRow_emb_val (k : S512.Idx) : (((iRowK L).view.emb k) 0).val = k0_off1 L 0 + (k 0).val := by
  show (Rect.unit (s := S16384) (k0_off1 L) S512.size (k0_off1_inb L)).off 0 + (Rect.unit (s := S16384) (k0_off1 L) S512.size (k0_off1_inb L)).stride 0 * (k 0).val = _
  show k0_off1 L 0 + 1 * (k 0).val = _
  omega

omit m [FloatOps F] in
theorem off_same : k0_off1 L 0 = k0_off2 L 0 := by rw [k0_off1_eq, k0_off2_eq]; rfl

omit m [FloatOps F] in
/-- The table is addressed whole: an index sits at itself. -/
theorem xAll_emb (z : S1000000x128.Idx) : (xAllK).view.emb z = z := by
  funext a; apply Fin.ext
  match a with
  | ⟨0, _⟩ => show 0 + 1 * _ = _; omega
  | ⟨1, _⟩ => show 0 + 1 * _ = _; omega

omit m [FloatOps F] in
/-- The word of a 512-long list at row-major position `k` is word `k`. -/
theorem list_pos (k : Fin 512) (h : S512.numel = 512) : ((S512.rowMajor.symm (Fin.cast h.symm k)) 0).val = k.val := by
  have h1 := Shape.rowMajor_val_one (d := ![512]) (S512.rowMajor.symm (Fin.cast h.symm k))
  rw [← h1]
  show (S512.rowMajor (S512.rowMajor.symm (Fin.cast h.symm k))).val = k.val
  rw [Equiv.apply_symm_apply]; rfl

/-- On a tile's slab the result, after the write-out of the gathered rows, is the lookup. -/
theorem out_value (hpre : PreOK m) (fs : Buf (Elt F) ((V d (cV L) (jV L)).loc cc0_scratch0)) (fr : Buf (Elt F) ((V d (cV L) (jV L)).loc cc0_scratch1))
    (ip : S512.Idx → Elt F .i32) (hip : ip = ReadAs.same.apply (View.read (Elt F) (iRowK L).view (m (iLoc d))))
    (hin : ∀ x, ((sV).view.read (Elt F) (View.write (Elt F) (sV).view fs ip Finset.univ) x).toNat < S1000000x128.size gathers_S1000000x128_S512x128.axis)
    (gp : S512x128.Idx → Elt F .f32)
    (hgp : gp = SparseCore.gatherPayload gathers_S1000000x128_S512x128 (View.read (Elt F) (xAllK).view (m (xLoc d)))
      (SparseCore.rows (View.read (Elt F) (sV).view (View.write (Elt F) (sV).view fs ip Finset.univ)) rfl hin))
    (op : S512x128.Idx → Elt F .f32)
    (hop : op = ReadAs.same.apply (View.read (Elt F) (rV).view ((rV).view.writes (Elt F) fr [⟨Rect.whole S512x128, gp⟩]))) :
    ∀ j ∈ (oRowK L).view.set, (oRowK L).view.writes (Elt F) (m (oLoc d)) [⟨Rect.whole S512x128, op⟩] j = Gout m d j := by
  intro j hj
  obtain ⟨y, -, rfl⟩ := Finset.mem_map.mp hj
  have h1 := View.read_writes_cons_emb (oRowK L).view (m (oLoc d)) (Rect.whole S512x128) op [] y
  rw [Rect.emb_whole_apply, View.read_apply] at h1
  have h1' : (oRowK L).view.writes (Elt F) (m (oLoc d)) [⟨Rect.whole S512x128, op⟩] ((oRowK L).view.emb y) = op y := (cast_eq _ _).symm.trans h1
  refine h1'.trans ?_
  subst hop
  have ew : (Rect.whole S512x128).emb y = y := Rect.emb_whole_apply _ _
  have h2 : View.read (Elt F) (rV).view ((rV).view.writes (Elt F) fr [⟨Rect.whole S512x128, gp⟩]) y = gp y := by
    have h := View.read_writes_cons_emb (rV).view fr (Rect.whole S512x128) gp [] y
    rw [ew] at h; exact h
  refine (show ReadAs.same.apply (View.read (Elt F) (rV).view ((rV).view.writes (Elt F) fr [⟨Rect.whole S512x128, gp⟩])) y = gp y from h2).trans ?_
  subst hgp
  unfold SparseCore.gatherPayload
  refine ((View.read_apply _ _).trans (cast_eq _ _)).trans ?_
  show m (xLoc d) _ = m (xLoc d) _
  refine congrArg (m (xLoc d)) ?_
  have hpre' := hpre d
  have hval := oRow_emb_val L y
  have hy0 : (y 0).val < 512 := (y 0).isLt
  have hy1 : (y 1).val < 128 := (y 1).isLt
  have hoff : k0_off2 L 0 + 512 ≤ 16384 := k0_off2_inb L 0
  -- the row of the table the gather reads for row `y 0` of the scratch: the index word the fetch landed there
  have hrow : ((gathers_S1000000x128_S512x128.idx
      (SparseCore.rows (View.read (Elt F) (sV).view (View.write (Elt F) (sV).view fs ip Finset.univ)) rfl hin) y) 0).val
      = (m (iLoc d) ((iRowK L).view.emb (S512.rowMajor.symm (Fin.cast (rfl : 512 = S512.numel) (y 0))))).toNat := by
    show (View.read (Elt F) (sV).view (View.write (Elt F) (sV).view fs ip Finset.univ) (S512.rowMajor.symm (Fin.cast _ (y 0)))).toNat = _
    rw [View.write_whole_univ]
    simp only [Memref.view_whole, View.read_whole]
    subst hip
    exact congrArg BitVec.toNat ((View.read_apply _ _).trans (cast_eq _ _))
  have hcol : ((gathers_S1000000x128_S512x128.idx
      (SparseCore.rows (View.read (Elt F) (sV).view (View.write (Elt F) (sV).view fs ip Finset.univ)) rfl hin) y) 1).val = (y 1).val := rfl
  -- that index word is the one the lookup reads for this position
  have hidx : (iRowK L).view.emb (S512.rowMajor.symm (Fin.cast (rfl : 512 = S512.numel) (y 0))) = ValueIdx.ix1 (Spec.rowOf ((oRowK L).view.emb y)) := by
    funext a; apply Fin.ext
    match a with
    | ⟨0, _⟩ =>
      refine (iRow_emb_val L _).trans ?_
      rw [list_pos (y 0) rfl, off_same]
      show _ = ((((oRowK L).view.emb y) 2).val / 128)
      rw [hval]; omega
  rw [xAll_emb]
  funext a; apply Fin.ext
  match a with
  | ⟨0, _⟩ =>
    refine hrow.trans ?_
    rw [hidx]
    exact (Spec.rowName_val (hpre' _)).symm
  | ⟨1, _⟩ =>
    refine hcol.trans ?_
    show _ = ((((oRowK L).view.emb y) 2).val % 128)
    rw [hval]; omega

end Value

end Cert.Kernel.Hand

end
-- ==== Proof.KTile.lean ====
/-
  One tile's task, at a symbolic tile: fetch the tile's 512 index words, gather the table rows they name into the
  row scratch, (on the first tile only) copy the second argument into the second result, wait for the gather, write
  the gathered rows to the tile's slab of the result. Four transfers on four semaphores, one at a time on each; the
  gather's list is not touched between its issue and its wait. The tile ends holding its slab of the result at the
  lookup (`Cert.Spec.G`), its index words and its share of the table as it found them.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KSetup
import proofs.«206963_g37203006718649_cont_8to1_b_574_16_alg».proof.Proof.KValue
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.Kernel
import proofs.«206963_g37203006718649_cont_8to1_b_574_16_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg2_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S16384 EltTy.i32)
local notation "hV" => (Memref.whole Cert.Kernel.main_arg1_scv : Memref Cert.Kernel.sig Kind.scVector Space.hbm Cert.Kernel.S1x1x128 EltTy.f32)
local notation "oV" => (Memref.whole Cert.Kernel.main_v0_0_scv : Memref Cert.Kernel.sig Kind.scVector Space.hbm Cert.Kernel.S1x1x2097152 EltTy.f32)
local notation "gV" => (Memref.whole Cert.Kernel.main_v0_1_scv : Memref Cert.Kernel.sig Kind.scVector Space.hbm Cert.Kernel.S1x1x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

variable [FloatOps F]

section Tile

variable (d : Dev nD) (L : grid0.Coords)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
      (mem_ownCells (g := cCcell d (cV L) (jV L))).mpr ⟨rfl, by show (SemLoc.dma cc0_scoped2.sem : SemLoc sig).isScoped .scVector = true; decide⟩⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_iRowK (f : Buf (Elt F) (iLoc d)) :
    ((iRowK L).view.loc (V d (cV L) (jV L)) ↦[(iRowK L).view.set]{fullShare} f : sProp 𝕄) = iLoc d ↦[iSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oSet L]{fullShare} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_hV (f : Buf (Elt F) (hLoc d)) :
    ((hV).view.loc (V d (cV L) (jV L)) ↦{fullShare} f : sProp 𝕄) = hLoc d ↦{fullShare} f := rfl
omit [FloatOps F] in
theorem pts_gV (f : Buf (Elt F) (gLoc d)) :
    ((gV).view.loc (V d (cV L) (jV L)) ↦{fullShare} f : sProp 𝕄) = gLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The words the gather reads are in range: what the index fetch landed in the index scratch is the tile's
    512 words of the index array, each below the table's 1000000 rows. -/
theorem inb_of_pre (hpre : PreOK m) (fs : Buf (Elt F) ((V d (cV L) (jV L)).loc cc0_scratch0)) (pay : S512.Idx → Elt F .i32)
    (hpay : pay = (iRowK L).view.read (Elt F) (m (iLoc d))) :
    ∀ x, ((sV).view.read (Elt F) (View.write (Elt F) (sV).view fs pay Finset.univ) x).toNat < S1000000x128.size gathers_S1000000x128_S512x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

set_option maxHeartbeats 4000000 in
/-- A tile other than the first. -/
theorem tile_rest (hF : (K (F := F)).Facts) (hpre : PreOK m) (q : PosShare TreeShare) (hfirst : ¬ isFirst L)
    (O : CellTallies nD τ sig (HIx 1)) (W : Waits sig (HIx 1)) (hO : ∀ g, O g none = 0) :
    iprop(levAts (K (F := F)).L (K (F := F)).lev ∗ emp
        ∗ (iRowPts m d L ∗ (xLoc d ↦{q} m (xLoc d)) ∗ oRowPts d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop((iRowPts m d L ∗ (xLoc d ↦{q} m (xLoc d)) ∗ oRowPts d L (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the index fetch and its wait
  sl_exec
  -- the gather (its list in range by the precondition), its wait, the write-out and its wait
  have hin := inb_of_pre m d L hpre fs (tile_rest.sl.dma0 m d L) rfl
  sl_exec (disch := exact hfirst)
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_value m d L hpre fs fr (tile_rest.sl.dma0 m d L) rfl hin (tile_rest.sl.gather0 m d L fs hin) rfl
      (tile_rest.sl.dma0_1 m d L fs fr hin) rfl)))
    iexact Ho'
  isplitl [Hs' Hr' Hbufs]
  · isplitl [Hs']; · iexists _; iexact Hs'
    isplitl [Hr']; · iexists _; iexact Hr'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

omit [FloatOps F] in
/-- The second result after the first tile's copy: the second argument. -/
theorem hid_value (w : S1x1x128.Idx → Elt F .f32) (hw : w = ReadAs.same.apply (View.read (Elt F) (hV).view (m (hLoc d)))) :
    View.write (Elt F) (gV).view (m (gLoc d)) w Finset.univ = (m (hLoc d) : Buf (Elt F) (gLoc d)) := by
  subst hw
  rw [View.write_whole_univ]
  simp only [Memref.view_whole, View.read_whole]

set_option maxHeartbeats 4000000 in
/-- The first tile: the same, and the copy of the second argument while the gather is in flight. -/
theorem tile_first (hF : (K (F := F)).Facts) (hpre : PreOK m) (q : PosShare TreeShare) (hfirst : isFirst L)
    (O : CellTallies nD τ sig (HIx 1)) (W : Waits sig (HIx 1)) (hO : ∀ g, O g none = 0) :
    iprop(levAts (K (F := F)).L (K (F := F)).lev ∗ emp
        ∗ (iRowPts m d L ∗ (xLoc d ↦{q} m (xLoc d)) ∗ oRowPts d L (m (oLoc d)) ∗ (hLoc d ↦{fullShare} m (hLoc d)) ∗ gLoc d ↦{fullShare} m (gLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop((iRowPts m d L ∗ (xLoc d ↦{q} m (xLoc d)) ∗ oRowPts d L (Gout m d) ∗ (hLoc d ↦{fullShare} m (hLoc d))
              ∗ gLoc d ↦{fullShare} (m (hLoc d) : Buf (Elt F) (gLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho, Hh, Hg⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hh' := (Entails.of_eq (pts_hV (F := F) d L _).symm) $$ Hh
  ihave Hg' := (Entails.of_eq (pts_gV (F := F) d L _).symm) $$ Hg
  ihave Hs' := (Entails.of_eq (pts_sV (F := F) d L _).symm) $$ Hs
  ihave Hr' := (Entails.of_eq (pts_rV (F := F) d L _).symm) $$ Hr
  sl_exec
  have hin := inb_of_pre m d L hpre fs (tile_first.sl.dma0 m d L) rfl
  sl_exec (disch := exact hfirst)
  sl_step
  isplitl [Hi' Hx' Ho' Hh' Hg']
  · isplitl [Hi']; · iapply (Entails.of_eq (pts_iRowK (F := F) d L _)); iexact Hi'
    isplitl [Hx']; · iexact Hx'
    isplitl [Ho']
    · iapply (Entails.of_eq (pts_oRowK (F := F) d L _))
      iapply (Entails.of_eq (pointsTo_congr (out_value m d L hpre fs fr (tile_first.sl.dma0 m d L) rfl hin (tile_first.sl.gather0 m d L fs hin) rfl
        (tile_first.sl.dma0_2 m d L fs fr hin) rfl)))
      iexact Ho'
    isplitl [Hh']; · iexact Hh'
    iapply (Entails.of_eq (congrArg (fun f => (gLoc d ↦{fullShare} f : sProp 𝕄)) (hid_value m d (tile_first.sl.dma0_1 m d) rfl)))
    iexact Hg'
  isplitl [Hs' Hr' Hbufs]
  · isplitl [Hs']; · iexists _; iexact Hs'
    isplitl [Hr']; · iexists _; iexact Hr'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

variable (d : Dev nD)

theorem goL_first (c : Fin 2) (s : Fin 16) (h : isFirst (pt c s)) : goL m d c s
    = iprop(iRowPts m d (pt c s) ∗ xShPts m d c s ∗ oRowPts d (pt c s) (m (oLoc d)) ∗ (hLoc d ↦{fullShare} m (hLoc d)) ∗ gLoc d ↦{fullShare} m (gLoc d)) := by
  show iprop(iRowPts m d (pt c s) ∗ xShPts m d c s ∗ oRowPts d (pt c s) (m (oLoc d)) ∗ hidBefore m d (pt c s)) = _
  unfold hidBefore; rw [if_pos h]
theorem goL_rest (c : Fin 2) (s : Fin 16) (h : ¬ isFirst (pt c s)) : goL m d c s
    = iprop(iRowPts m d (pt c s) ∗ xShPts m d c s ∗ oRowPts d (pt c s) (m (oLoc d)) ∗ emp) := by
  show iprop(iRowPts m d (pt c s) ∗ xShPts m d c s ∗ oRowPts d (pt c s) (m (oLoc d)) ∗ hidBefore m d (pt c s)) = _
  unfold hidBefore; rw [if_neg h]
theorem tdL_first (c : Fin 2) (s : Fin 16) (h : isFirst (pt c s)) : tdL m d c s
    = iprop(iRowPts m d (pt c s) ∗ xShPts m d c s ∗ oRowPts d (pt c s) (Gout m d) ∗ (hLoc d ↦{fullShare} m (hLoc d))
        ∗ gLoc d ↦{fullShare} (m (hLoc d) : Buf (Elt F) (gLoc d))) := by
  show iprop(iRowPts m d (pt c s) ∗ xShPts m d c s ∗ oRowPts d (pt c s) (Gout m d) ∗ hidAfter m d (pt c s)) = _
  unfold hidAfter; rw [if_pos h]
theorem tdL_rest (c : Fin 2) (s : Fin 16) (h : ¬ isFirst (pt c s)) : tdL m d c s
    = iprop(iRowPts m d (pt c s) ∗ xShPts m d c s ∗ oRowPts d (pt c s) (Gout m d) ∗ emp) := by
  show iprop(iRowPts m d (pt c s) ∗ xShPts m d c s ∗ oRowPts d (pt c s) (Gout m d) ∗ hidAfter m d (pt c s)) = _
  unfold hidAfter; rw [if_neg h]

/-- Tile `(c, s)`'s task, from what it is handed to what it hands back. -/
theorem tile_body (hF : (K (F := F)).Facts) (hpre : PreOK m) (c : Fin 2) (s : Fin 16)
    (O : CellTallies nD τ sig (HIx 1)) (W : Waits sig (HIx 1)) (hO : ∀ g, O g none = 0) :
    iprop(levAts (K (F := F)).L (K (F := F)).lev ∗ emp ∗ goL m d c s
        ∗ scopedBufs (V d (cV (pt c s)) (jV (pt c s))) ∗ scopedSems0 (V d (cV (pt c s)) (jV (pt c s))) ∗ owes (V d (cV (pt c s)) (jV (pt c s))) O W)
      ⊢ wp frame (wpE (defs₀ (F := F)) 𝒱₀ (V d (cV (pt c s)) (jV (pt c s))) none) Set.univ
          (cc0__gather_body (pt c s) xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop(tdL m d c s ∗ scopedBufs (V d (cV (pt c s)) (jV (pt c s))) ∗ scopedSems0 (V d (cV (pt c s)) (jV (pt c s)))
            ∗ ∃ W', ⌜∀ p ∈ W', p ∈ W ∨ p.2 = none⌝ ∗ owes (V d (cV (pt c s)) (jV (pt c s))) O W') := by
  by_cases hfirst : isFirst (pt c s)
  · refine BI.Entails.trans ?_ ((tile_first m d (pt c s) hF hpre (xq c s) hfirst O W hO).trans (wp_mono frame _ _ fun _ => ?_))
    · rw [goL_first m d c s hfirst]
      exact BI.Entails.refl _
    · rw [tdL_first m d c s hfirst]
  · refine BI.Entails.trans ?_ ((tile_rest m d (pt c s) hF hpre (xq c s) hfirst O W hO).trans (wp_mono frame _ _ fun _ => ?_))
    · rw [goL_rest m d c s hfirst]
      show (_ : sProp 𝕄) ⊢ _
      iintro ⟨Hlv, He, ⟨Hi, Hx, Ho, -⟩, Hrest⟩
      isplitl [Hlv]; · iexact Hlv
      isplitl [He]; · iexact He
      isplitr [Hrest]; swap; · iexact Hrest
      isplitl [Hi]; · iexact Hi
      isplitl [Hx]; · iexact Hx
      iexact Ho
    · rw [tdL_rest m d c s hfirst]
      iintro ⟨⟨Hi, Hx, Ho⟩, Hrest⟩
      isplitr [Hrest]; swap; · iexact Hrest
      isplitl [Hi]; · iexact Hi
      isplitl [Hx]; · iexact Hx
      isplitl [Ho]; · iexact Ho
      iempintro

theorem defs₀_vector (c : Fin τ.nSC) (s : Fin τ.nSub) :
    defs₀ (F := F) (.scVector c s) 0 ()
      = SparseCore.onTile hcore0 hsub0 (fun c s => cc0__gather_body (coordsV c s)
          xV (Memref.isWhole_whole _) iV (Memref.isWhole_whole _) hV (Memref.isWhole_whole _) oV (Memref.isWhole_whole _)
          gV (Memref.isWhole_whole _) sV (Memref.isWhole_whole _) rV (Memref.isWhole_whole _) cc0_scratch2 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d hF hpre (Fin.cast nCore_zero c) (Fin.cast nSub_zero i) O W hO).trans (wp_mono frame _ _ fun _ => obl_post)

end Obl

end Cert.Kernel.Hand

end
-- ==== Proof.KLaunch.lean ====
/-
  The launch: the TensorCore hands the five arrays to the two SparseCores, divided among their 32 tiles, waits for
  them, and has the arrays back — the index words, the second argument and the table as they were, the flat result at
  the lookup, the second result at the second argument. From this, the run of the whole family of threads.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KSetup
import proofs.«206963_g37203006718649_cont_8to1_b_574_16_alg».proof.Proof.KSplit
import proofs.«206963_g37203006718649_cont_8to1_b_574_16_alg».proof.Proof.KTile
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.Kernel
import proofs.«206963_g37203006718649_cont_8to1_b_574_16_alg».proof.Proof.Gen.Kernel.Skeleton

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.Kernel.main_arg2_scv : Memref Cert.Kernel.sig Kind.scVector Space.hbm Cert.Kernel.S1000000x128 EltTy.f32)
local notation "iV" => (Memref.whole Cert.Kernel.main_arg0_scv : Memref Cert.Kernel.sig Kind.scVector Space.hbm Cert.Kernel.S16384 EltTy.i32)
local notation "hV" => (Memref.whole Cert.Kernel.main_arg1_scv : Memref Cert.Kernel.sig Kind.scVector Space.hbm Cert.Kernel.S1x1x128 EltTy.f32)
local notation "oV" => (Memref.whole Cert.Kernel.main_v0_0_scv : Memref Cert.Kernel.sig Kind.scVector Space.hbm Cert.Kernel.S1x1x2097152 EltTy.f32)
local notation "gV" => (Memref.whole Cert.Kernel.main_v0_1_scv : Memref Cert.Kernel.sig Kind.scVector Space.hbm Cert.Kernel.S1x1x128 EltTy.f32)
local notation "sV" => (Memref.whole Cert.Kernel.cc0_scratch0 : Memref Cert.Kernel.sig Kind.scVector Space.vmem Cert.Kernel.S512 EltTy.i32)
local notation "rV" => (Memref.whole Cert.Kernel.cc0_scratch1 : Memref Cert.Kernel.sig Kind.scVector Space.vmem Cert.Kernel.S512x128 EltTy.f32)

variable (m : (ℓ : Loc nD τ sig) → Buf (Elt F) ℓ) (ρ : Dev nD → PrngReg)

variable [FloatOps F]

/-! ## A SparseCore's operands are its tiles' -/

omit m [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goL m d (Fin.cast nCore_zero c) s) ⊢ |={Set.univ}=> iprop(
      (bigSep Finset.univ fun i : Fin ((K (F := F)).nSub 0) => goL m d (Fin.cast nCore_zero c) (Fin.cast nSub_zero i))
      ∗ ((bigSep Finset.univ fun i : Fin ((K (F := F)).nSub 0) => tdL m d (Fin.cast nCore_zero c) (Fin.cast nSub_zero i))
          -∗ bigSep Finset.univ fun s : Fin 16 => tdL m d (Fin.cast nCore_zero c) s))
  rw [bigSep_tasks (F := F) (fun s => goL m d (Fin.cast nCore_zero c) s), bigSep_tasks (F := F) (fun s => tdL m d (Fin.cast nCore_zero c) s)]
  iintro H; imodintro
  isplitl [H]; · iexact H
  iintro H; iexact H

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (hLoc d ↦{fullShare} W main_arg1) ∗ (xLoc d ↦{fullShare} W main_arg2)
      ∗ (oLoc d ↦{fullShare} W main_v0_0) ∗ gLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => goL m d c s :=
  bigSep_cores (F := F) (fun c => bigSep Finset.univ fun s : Fin 16 => goL m d c s)
theorem dn0_eq (d : Dev nD) : (bigSep Finset.univ fun c : Fin ((K (F := F)).nCore 0) => (P m).dn 0 d c)
    = bigSep Finset.univ fun c : Fin 2 => bigSep Finset.univ fun s : Fin 16 => tdL m d c s :=
  bigSep_cores (F := F) (fun c => bigSep Finset.univ fun s : Fin 16 => tdL m d c s)

/-- What the tiles take, array by array. -/
theorem go_fam (d : Dev nD) : (bigSep Finset.univ fun c : Fin 2 => bigSep Finset.univ fun s : Fin 16 => goL m d c s)
    = iprop((bigSep Finset.univ fun c : Fin 2 => bigSep Finset.univ fun s : Fin 16 => iRowPts m d (pt c s))
      ∗ (bigSep Finset.univ fun c : Fin 2 => bigSep Finset.univ fun s : Fin 16 => xShPts m d c s)
      ∗ (bigSep Finset.univ fun c : Fin 2 => bigSep Finset.univ fun s : Fin 16 => oRowPts d (pt c s) (m (oLoc d)))
      ∗ (bigSep Finset.univ fun c : Fin 2 => bigSep Finset.univ fun s : Fin 16 => hidBefore m d (pt c s))) := by
  simp only [bigSep_sep']
/-- What they bring back. -/
theorem td_fam (d : Dev nD) : (bigSep Finset.univ fun c : Fin 2 => bigSep Finset.univ fun s : Fin 16 => tdL m d c s)
    = iprop((bigSep Finset.univ fun c : Fin 2 => bigSep Finset.univ fun s : Fin 16 => iRowPts m d (pt c s))
      ∗ (bigSep Finset.univ fun c : Fin 2 => bigSep Finset.univ fun s : Fin 16 => xShPts m d c s)
      ∗ (bigSep Finset.univ fun c : Fin 2 => bigSep Finset.univ fun s : Fin 16 => oRowPts d (pt c s) (Gout m d))
      ∗ (bigSep Finset.univ fun c : Fin 2 => bigSep Finset.univ fun s : Fin 16 => hidAfter m d (pt c s))) := by
  simp only [bigSep_sep']

theorem hidBefore_fam (d : Dev nD) : (bigSep Finset.univ fun c : Fin 2 => bigSep Finset.univ fun s : Fin 16 => hidBefore m d (pt c s))
    = iprop((hLoc d ↦{fullShare} m (hLoc d)) ∗ gLoc d ↦{fullShare} m (gLoc d)) := by
  unfold hidBefore; exact first_fam _
theorem hidAfter_fam (d : Dev nD) : (bigSep Finset.univ fun c : Fin 2 => bigSep Finset.univ fun s : Fin 16 => hidAfter m d (pt c s))
    = iprop((hLoc d ↦{fullShare} m (hLoc d)) ∗ gLoc d ↦{fullShare} (m (hLoc d) : Buf (Elt F) (gLoc d))) := by
  unfold hidAfter; exact first_fam _

/-- What @main leaves the claim: the three arguments as they were, the two results at their values. -/
abbrev FIN (d : Dev nD) : sProp 𝕄 :=
  iprop((iLoc d ↦{fullShare} m (iLoc d)) ∗ (hLoc d ↦{fullShare} m (hLoc d)) ∗ (xLoc d ↦{fullShare} m (xLoc d))
    ∗ (oLoc d ↦{fullShare} Gout m d) ∗ gLoc d ↦{fullShare} (m (hLoc d) : Buf (Elt F) (gLoc d)))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hh, Hx, Ho, Hg⟩, -, -⟩, -⟩
  ihave Hxs := (xPts_fam (F := F) d _).1 $$ Hx
  icases Hxs with ⟨Hxr, Hxs⟩
  iapply ((K (F := F)).wp_run (D (F := F)) 𝒱 (EH := EH) (P := P m) κ d 0) $$ [Hst Hi Hh Hxs Ho Hg Hxr]
  isplitr; · iexact Hctx
  isplitl [Hst]; · iexact Hst
  isplitl [Hi Hh Hxs Ho Hg]
  · rw [st0_eq, go_fam, hidBefore_fam]
    isplitl [Hi]; · iapply (Entails.of_eq (iPts_fam (F := F) d _)); iexact Hi
    isplitl [Hxs]; · iexact Hxs
    isplitl [Ho]; · iapply (Entails.of_eq (oPts_fam (F := F) d _)); iexact Ho
    isplitl [Hh]; · iexact Hh
    iexact Hg
  iintro ⟨Hst, Hdn⟩
  ihave Hdn' := (Entails.of_eq ((dn0_eq m d).trans ((td_fam m d).trans (congrArg (fun X => iprop(_ ∗ _ ∗ _ ∗ X)) (hidAfter_fam m d))))) $$ Hdn
  icases Hdn' with ⟨Hi, Hxs, Ho, Hh, Hg⟩
  imodintro
  isplitl [Hst]; · iexact Hst
  isplitl [Hi]; · iapply (Entails.of_eq (iPts_fam (F := F) d _).symm); iexact Hi
  isplitl [Hh]; · iexact Hh
  isplitl [Hxr Hxs]
  · iapply (xPts_fam (F := F) d _).2
    isplitl [Hxr]; · iexact Hxr
    iexact Hxs
  isplitl [Ho]; · iapply (Entails.of_eq (oPts_fam (F := F) d _).symm); iexact Ho
  iexact Hg

def fq (d : Dev nD) (s' : Phys nD τ sig (Elt F)) : Prop :=
  s'.mem.mem (oLoc d) = Gout m d ∧ s'.mem.mem (gLoc d) = (m (hLoc d) : Buf (Elt F) (gLoc d))
    ∧ s'.mem.mem (iLoc d) = m (iLoc d) ∧ s'.mem.mem (hLoc d) = m (hLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hh, Hx, Ho, Hg⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h3, HSI, -⟩
  ihave H := (persistent_entails_right (SI_pointsTo_agree (st := s') (ℓ := oLoc d) (I := Finset.univ) (q := fullShare) (f := Gout m d))) $$ [HSI Ho]
  · isplitl [HSI] <;> iassumption
  icases H with ⟨%h4, HSI, -⟩
  ihave H := (SI_pointsTo_agree (st := s') (ℓ := gLoc d) (I := Finset.univ) (q := fullShare) (f := (m (hLoc d) : Buf (Elt F) (gLoc d)))) $$ [HSI Hg]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (oLoc c) = Gout m c ∧ r.2.mem (gLoc c) = (m (hLoc c) : Buf (Elt F) (gLoc c))
    ∧ r.2.mem (iLoc c) = m (iLoc c) ∧ r.2.mem (hLoc c) = m (hLoc c) ∧ r.2.mem (xLoc c) = m (xLoc c)

/-- Every weakly fair execution of the device's threads terminates, nothing faulting, with the flat result at the
    lookup, the second result at the second argument, and the three arguments unchanged. -/
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Kernel.Hand

end
-- ==== Proof.KISetup.lean ====
/-
  The lookup kernel as its launch sees it, and what each of its 32 tiles is handed.
  Tile `(c, s)` (SparseCore `c` of 2, vector subcore `s` of 16) has number `w = 2 s + c` and owns the 512 consecutive
  index words `512 w … 512 w + 511` and the matching 512 rows of the result (read as a 16384 × 128 matrix laid out flat).
  Every tile reads the whole table, so the table goes out as 32 read shares; tile `(0, 0)` alone copies the second
  argument into the second result, so it alone is handed those two arrays. What a tile hands back is its slab of the
  result holding the looked-up rows: the ONE whole-array function `Cert.Spec.G` of the arguments, on that slab.
-/
import proofs.«206963_g37203006718649_cont_8to1_b_574_16_alg».proof.Defs
import proofs.«206963_g37203006718649_cont_8to1_b_574_16_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.KernelIdeal
import proofs.«206963_g37203006718649_cont_8to1_b_574_16_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The index words, the second argument, the table; the flat result and the second result. -/
abbrev iLoc (d : Dev nD) : Loc nD τ sig := (SparseCore.T d).loc main_arg0
abbrev hLoc (d : Dev nD) : Loc nD τ sig := (SparseCore.T d).loc main_arg1
abbrev xLoc (d : Dev nD) : Loc nD τ sig := (SparseCore.T d).loc main_arg2
abbrev oLoc (d : Dev nD) : Loc nD τ sig := (SparseCore.T d).loc main_v0_0
abbrev gLoc (d : Dev nD) : Loc nD τ sig := (SparseCore.T d).loc main_v0_1

local notation "xV" => (Memref.whole Cert.KernelIdeal.main_arg2_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S16384 EltTy.i32)
local notation "hV" => (Memref.whole Cert.KernelIdeal.main_arg1_scv : Memref Cert.KernelIdeal.sig Kind.scVector Space.hbm Cert.KernelIdeal.S1x1x128 EltTy.f32)
local notation "oV" => (Memref.whole Cert.KernelIdeal.main_v0_0_scv : Memref Cert.KernelIdeal.sig Kind.scVector Space.hbm Cert.KernelIdeal.S1x1x2097152 EltTy.f32)
local notation "gV" => (Memref.whole Cert.KernelIdeal.main_v0_1_scv : Memref Cert.KernelIdeal.sig Kind.scVector Space.hbm Cert.KernelIdeal.S1x1x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

/-! ## A tile's slabs, as the kernel slices them -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The same from literal-size coordinates. -/
abbrev pt (c : Fin 2) (s : Fin 16) : grid0.Coords := coordsV c s

abbrev cV (L : grid0.Coords) : Fin τ.nSC := (L 0).castLE hcore0
abbrev jV (L : grid0.Coords) : Fin τ.nSub := (L 1).castLE hsub0

/-- The tile's 512 index words, the whole table, the result read as a matrix, and the tile's 512 rows of it. -/
abbrev iRowK (L : grid0.Coords) : Memref sig .scVector .hbm S512 .i32 :=
  (iV).slice (Rect.unit (s := S16384) (k0_off1 L) S512.size (k0_off1_inb L)) (fun _ => rfl)
abbrev xAllK : Memref sig .scVector .hbm S1000000x128 .f32 :=
  (xV).slice (Rect.unit (s := S1000000x128) ![0, 0] S1000000x128.size inb_S1000000x128_S1000000x128_0_0) (fun _ => rfl)
abbrev oMatK : Memref sig .scVector .hbm S16384x128 .f32 :=
  (oV).reshape S16384x128 reshapes_S1x1x2097152_S16384x128.1 reshapes_S1x1x2097152_S16384x128.2 (Memref.isWhole_whole _).contiguous
abbrev oRowK (L : grid0.Coords) : Memref sig .scVector .hbm S512x128 .f32 :=
  (oMatK).slice (Rect.unit (s := S16384x128) (k0_off2 L) S512x128.size (k0_off2_inb L)) (fun _ => rfl)

/-- The elements of the index array, and of the flat result, that tile `L` owns. -/
abbrev iSet (L : grid0.Coords) : Finset S16384.Idx := (iRowK L).view.set
abbrev oSet (L : grid0.Coords) : Finset S1x1x2097152.Idx := (oRowK L).view.set

/-- Whether tile `L` is the one that copies the second argument: the kernel's own test of its number against zero. -/
abbrev isFirst (L : grid0.Coords) : Prop :=
  Scalar.cmpi .ne (Scalar.extui (Scalar.cmpi .eq (Scalar.addi (Scalar.muli (BitVec.ofNat 32 (L 1).val) 2#32) (BitVec.ofNat 32 (L 0).val)) 0#32)) 0#32 = 1#1

theorem isFirst_iff : ∀ L : grid0.Coords, isFirst L ↔ ((L 0).val = 0 ∧ (L 1).val = 0) := by decide +kernel

/-! ## Shares of the table: one read share per tile, the remainder kept by the TensorCore -/

/-- Tile `(c, s)`'s share of the table. -/
abbrev xq (c : Fin 2) (s : Fin 16) : PosShare TreeShare := Transfers.shareTok fullShare 32 (finProdFinEquiv (c, s))

variable [FloatOps F]

/-! ## What the result holds at the end -/

/-- The flat result: the looked-up rows end to end. -/
abbrev Gout (d : Dev nD) : Buf (Elt F) (oLoc d) := Cert.Spec.G (F := F) (m (iLoc d)) (m (xLoc d))

/-- What the proof asks of the launch memory: every index word names a row of the table. -/
def PreOK : Prop := ∀ d : Dev nD, Cert.Spec.InRange (m (iLoc d))

/-! ## What the handshakes carry -/

abbrev iRowPts (d : Dev nD) (L : grid0.Coords) : sProp 𝕄 := iLoc d ↦[iSet L]{fullShare} m (iLoc d)
abbrev xShPts (d : Dev nD) (c : Fin 2) (s : Fin 16) : sProp 𝕄 := xLoc d ↦{xq c s} m (xLoc d)
abbrev oRowPts (d : Dev nD) (L : grid0.Coords) (f : Buf (Elt F) (oLoc d)) : sProp 𝕄 := oLoc d ↦[oSet L]{fullShare} f

/-- The second argument and the second result, for the one tile that copies: before, and after. -/
def hidBefore (d : Dev nD) (L : grid0.Coords) : sProp 𝕄 :=
  if isFirst L then iprop((hLoc d ↦{fullShare} m (hLoc d)) ∗ gLoc d ↦{fullShare} m (gLoc d)) else iprop(emp)
def hidAfter (d : Dev nD) (L : grid0.Coords) : sProp 𝕄 :=
  if isFirst L then iprop((hLoc d ↦{fullShare} m (hLoc d)) ∗ gLoc d ↦{fullShare} (m (hLoc d) : Buf (Elt F) (gLoc d))) else iprop(emp)

instance hidBefore_storable (d : Dev nD) (L : grid0.Coords) : BI.Storable (upEmb : UEmb _ 𝕄) (hidBefore m d L) := by
  unfold hidBefore; split <;> infer_instance
instance hidAfter_storable (d : Dev nD) (L : grid0.Coords) : BI.Storable (upEmb : UEmb _ 𝕄) (hidAfter m d L) := by
  unfold hidAfter; split <;> infer_instance

/-- What tile `(c, s)` takes, and what it brings back. -/
abbrev goL (d : Dev nD) (c : Fin 2) (s : Fin 16) : sProp 𝕄 :=
  iprop(iRowPts m d (pt c s) ∗ xShPts m d c s ∗ oRowPts d (pt c s) (m (oLoc d)) ∗ hidBefore m d (pt c s))
abbrev tdL (d : Dev nD) (c : Fin 2) (s : Fin 16) : sProp 𝕄 :=
  iprop(iRowPts m d (pt c s) ∗ xShPts m d c s ∗ oRowPts d (pt c s) (Gout m d) ∗ hidAfter m d (pt c s))

/-- The one call: a SparseCore takes its sixteen tiles' operands and brings back their results; the kernel's proof
    consumes nothing of the launch's. -/
def P : (K (F := F)).Pay (nD := nD) (Val := Elt F) (Name := ℕ) (U := UU) where
  st := fun q d c => match q with | 0 => bigSep Finset.univ fun s : Fin 16 => goL m d (Fin.cast nCore_zero c) s
  dn := fun q d c => match q with | 0 => bigSep Finset.univ fun s : Fin 16 => tdL m d (Fin.cast nCore_zero c) s
  go := fun q d c i => match q with | 0 => goL m d (Fin.cast nCore_zero c) (Fin.cast nSub_zero i)
  td := fun q d c i => match q with | 0 => tdL m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goL m d (Fin.cast nCore_zero c) s))
  dn q d c := match q with
    | 0 => (inferInstance : BI.Storable (upEmb : UEmb _ 𝕄) (bigSep Finset.univ fun s : Fin 16 => tdL m d (Fin.cast nCore_zero c) s))
  go q d c i := match q with
    | 0 => (inferInstance : BI.Storable (upEmb : UEmb _ 𝕄) (goL m d (Fin.cast nCore_zero c) (Fin.cast nSub_zero i)))
  td q d c i := match q with
    | 0 => (inferInstance : BI.Storable (upEmb : UEmb _ 𝕄) (tdL m d (Fin.cast nCore_zero c) (Fin.cast nSub_zero i)))

end Cert.KernelIdeal.Hand

end
-- ==== Proof.KISplit.lean ====
/-
  How the arrays divide among the 32 tiles and come together again. The index array is the disjoint union of the
  tiles' slabs of 512 words (tile `(c, s)` starts at word `1024 s + 512 c`); the flat result, read as a 16384 × 128
  matrix, is the disjoint union of their slabs of 512 rows; the table is handed out as 32 read shares beside a
  remainder; and of a family that gives something to the first tile only, the whole is that something.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KISetup
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.KernelIdeal
import proofs.«206963_g37203006718649_cont_8to1_b_574_16_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S16384 EltTy.i32)
local notation "hV" => (Memref.whole Cert.KernelIdeal.main_arg1_scv : Memref Cert.KernelIdeal.sig Kind.scVector Space.hbm Cert.KernelIdeal.S1x1x128 EltTy.f32)
local notation "oV" => (Memref.whole Cert.KernelIdeal.main_v0_0_scv : Memref Cert.KernelIdeal.sig Kind.scVector Space.hbm Cert.KernelIdeal.S1x1x2097152 EltTy.f32)
local notation "gV" => (Memref.whole Cert.KernelIdeal.main_v0_1_scv : Memref Cert.KernelIdeal.sig Kind.scVector Space.hbm Cert.KernelIdeal.S1x1x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

/-! ## The slabs are pairwise disjoint and cover -/

omit m in
theorem pair_ne {p p' : Fin 2 × Fin 16} (h : p ≠ p') : ¬ (p.1.val = p'.1.val ∧ p.2.val = p'.2.val) :=
  fun ⟨h1, h2⟩ => h (Prod.ext (Fin.ext h1) (Fin.ext h2))

omit m in
theorem iSet_eq (L : grid0.Coords) : iSet L = (Rect.unit (s := S16384) (k0_off1 L) S512.size (k0_off1_inb L)).set := by
  show ((View.whole (main_arg0_scv : Ref sig .scVector)).slice _).set = _
  rw [View.set_slice]; exact Finset.map_refl

omit m in
theorem iSets_disjoint : ∀ p ∈ (Finset.univ : Finset (Fin 2 × Fin 16)), ∀ p' ∈ (Finset.univ : Finset (Fin 2 × Fin 16)), p ≠ p' →
    Disjoint (iSet (pt p.1 p.2)) (iSet (pt p'.1 p'.2)) := fun p _ p' _ h => by
  rw [iSet_eq, iSet_eq]
  refine Rect.unit_disjoint (0 : Fin 1) ?_
  rw [k0_off1_eq, k0_off1_eq]
  have hn := pair_ne h
  have h1 := p.1.isLt; have h2 := p.2.isLt; have h3 := p'.1.isLt; have h4 := p'.2.isLt
  show 1024 * p.2.val + 512 * p.1.val + 512 ≤ 1024 * p'.2.val + 512 * p'.1.val ∨ 1024 * p'.2.val + 512 * p'.1.val + 512 ≤ 1024 * p.2.val + 512 * p.1.val
  omega

omit m in
theorem iSets_cover : (Finset.univ : Finset (Fin 2 × Fin 16)).biUnion (fun p => iSet (pt p.1 p.2)) = Finset.univ := by
  ext j
  simp only [Finset.mem_biUnion, Finset.mem_univ, true_and, iff_true]
  have hj : (j 0).val < 16384 := (j 0).isLt
  refine ⟨(⟨(j 0).val / 512 % 2, Nat.mod_lt _ (by decide)⟩, ⟨(j 0).val / 512 / 2, by omega⟩), ?_⟩
  rw [iSet_eq, Rect.mem_set_unit]
  intro a
  obtain rfl : a = 0 := Subsingleton.elim _ _
  rw [k0_off1_eq]
  show 1024 * ((j 0).val / 512 / 2) + 512 * ((j 0).val / 512 % 2) ≤ (j 0).val ∧ (j 0).val < 1024 * ((j 0).val / 512 / 2) + 512 * ((j 0).val / 512 % 2) + 512
  omega

/-- The result read as a matrix: its placement in the flat array. -/
abbrev oMatView : View sig .scVector .hbm S16384x128 .f32 :=
  (View.whole (main_v0_0_scv : Ref sig .scVector)).reshape S16384x128 reshapes_S1x1x2097152_S16384x128.1

omit m in
theorem oSet_eq (L : grid0.Coords) : oSet L = (Rect.unit (s := S16384x128) (k0_off2 L) S512x128.size (k0_off2_inb L)).set.map oMatView.emb := by
  show (oMatView.slice _).set = _
  rw [View.set_slice]

omit m in
theorem oSets_disjoint : ∀ p ∈ (Finset.univ : Finset (Fin 2 × Fin 16)), ∀ p' ∈ (Finset.univ : Finset (Fin 2 × Fin 16)), p ≠ p' →
    Disjoint (oSet (pt p.1 p.2)) (oSet (pt p'.1 p'.2)) := fun p _ p' _ h => by
  rw [oSet_eq, oSet_eq, Finset.disjoint_map]
  refine Rect.unit_disjoint (0 : Fin 2) ?_
  rw [k0_off2_eq, k0_off2_eq]
  have hn := pair_ne h
  have h1 := p.1.isLt; have h2 := p.2.isLt; have h3 := p'.1.isLt; have h4 := p'.2.isLt
  show 1024 * p.2.val + 512 * p.1.val + 512 ≤ 1024 * p'.2.val + 512 * p'.1.val ∨ 1024 * p'.2.val + 512 * p'.1.val + 512 ≤ 1024 * p.2.val + 512 * p.1.val
  omega

omit m in
theorem oSets_cover : (Finset.univ : Finset (Fin 2 × Fin 16)).biUnion (fun p => oSet (pt p.1 p.2)) = Finset.univ := by
  ext j
  simp only [Finset.mem_biUnion, Finset.mem_univ, true_and, iff_true]
  have hmem : j ∈ oMatView.set := by
    rw [show oMatView.set = (View.whole (main_v0_0_scv : Ref sig .scVector)).set from View.set_reshape _ _, View.set_whole]; exact Finset.mem_univ _
  obtain ⟨y, -, rfl⟩ := Finset.mem_map.mp hmem
  have hy : (y 0).val < 16384 := (y 0).isLt
  have hy1 : (y 1).val < 128 := (y 1).isLt
  refine ⟨(⟨(y 0).val / 512 % 2, Nat.mod_lt _ (by decide)⟩, ⟨(y 0).val / 512 / 2, by omega⟩), ?_⟩
  rw [oSet_eq]
  refine Finset.mem_map_of_mem _ ?_
  rw [Rect.mem_set_unit]
  intro a
  rw [k0_off2_eq]
  match a with
  | 0 =>
    show 1024 * ((y 0).val / 512 / 2) + 512 * ((y 0).val / 512 % 2) ≤ (y 0).val ∧ (y 0).val < 1024 * ((y 0).val / 512 / 2) + 512 * ((y 0).val / 512 % 2) + 512
    omega
  | 1 =>
    show 0 ≤ (y 1).val ∧ (y 1).val < 0 + 128
    omega

/-! ## The arrays as families over the tiles -/

omit m in
theorem iPts_fam (d : Dev nD) (f : Buf (Elt F) (iLoc d)) :
    (iLoc d ↦{fullShare} f : sProp 𝕄) = bigSep Finset.univ fun c : Fin 2 => bigSep Finset.univ fun s : Fin 16 => iLoc d ↦[iSet (pt c s)]{fullShare} f := by
  rw [← bigSep_univ_prod (fun p : Fin 2 × Fin 16 => (iLoc d ↦[iSet (pt p.1 p.2)]{fullShare} f : sProp 𝕄)),
    ← pointsTo_biUnion Finset.univ (ℓ := iLoc d) (fun p : Fin 2 × Fin 16 => iSet (pt p.1 p.2)) iSets_disjoint, iSets_cover]

omit m in
theorem oPts_fam (d : Dev nD) (f : Buf (Elt F) (oLoc d)) :
    (oLoc d ↦{fullShare} f : sProp 𝕄) = bigSep Finset.univ fun c : Fin 2 => bigSep Finset.univ fun s : Fin 16 => oLoc d ↦[oSet (pt c s)]{fullShare} f := by
  rw [← bigSep_univ_prod (fun p : Fin 2 × Fin 16 => (oLoc d ↦[oSet (pt p.1 p.2)]{fullShare} f : sProp 𝕄)),
    ← pointsTo_biUnion Finset.univ (ℓ := oLoc d) (fun p : Fin 2 × Fin 16 => oSet (pt p.1 p.2)) oSets_disjoint, oSets_cover]

omit m in
/-- The table: the remainder the TensorCore keeps, and one read share per tile. -/
theorem xPts_fam (d : Dev nD) (f : Buf (Elt F) (xLoc d)) :
    (xLoc d ↦{fullShare} f : sProp 𝕄) ⊣⊢ iprop((xLoc d ↦{Transfers.shareDrop fullShare 32} f)
      ∗ bigSep Finset.univ fun c : Fin 2 => bigSep Finset.univ fun s : Fin 16 => xLoc d ↦{xq c s} f) := by
  rw [← bigSep_univ_prod (fun p : Fin 2 × Fin 16 => (xLoc d ↦{xq p.1 p.2} f : sProp 𝕄)),
    ← bigSep_univ_equiv (finProdFinEquiv (m := 2) (n := 16)) (fun i : Fin (2 * 16) => (xLoc d ↦{Transfers.shareTok fullShare 32 i} f : sProp 𝕄))]
  exact Transfers.pointsTo_toks (ℓ := xLoc d) (S := Finset.univ) (f := f) fullShare 32

omit m in
theorem bigSep_emp' {I : Type} (s : Finset I) : (bigSep s fun _ => iprop(emp)) = (iprop(emp) : sProp 𝕄) := bigSep_emp_const s

omit m in
/-- A family that gives `X` to the first tile and nothing to the others is `X`. -/
theorem first_fam (X : sProp 𝕄) :
    (bigSep Finset.univ fun c : Fin 2 => bigSep Finset.univ fun s : Fin 16 => (if isFirst (pt c s) then X else iprop(emp))) = X := by
  rw [← bigSep_univ_prod (fun p : Fin 2 × Fin 16 => (if isFirst (pt p.1 p.2) then X else iprop(emp) : sProp 𝕄)),
    bigSep_univ_split ((0, 0) : Fin 2 × Fin 16), if_pos ((isFirst_iff _).mpr ⟨rfl, rfl⟩),
    bigSep_congr (Ψ := fun _ => (iprop(emp) : sProp 𝕄)) fun p hp => if_neg fun hf => by
      have := (isFirst_iff _).mp hf
      exact (Finset.mem_erase.mp hp).1 (Prod.ext (Fin.ext this.1) (Fin.ext this.2)),
    bigSep_emp']
  exact BI.equiv_iff.mp BI.sep_emp

end Cert.KernelIdeal.Hand

end
-- ==== Proof.KIValue.lean ====
/-
  What a tile leaves in its slab of the result, as a value. The index scratch holds the tile's 512 index words
  (word `k` of the scratch is word `1024 s + 512 c + k` of the index array); the gather puts row `idx[k]` of the table
  at row `k` of the row scratch; the write-out puts row `k`, column `h` of the scratch at row `1024 s + 512 c + k`,
  column `h` of the result read as a 16384 × 128 matrix, which is flat position `(1024 s + 512 c + k) · 128 + h`. So on
  the tile's slab the result is the lookup `Cert.Spec.G`: position `n` holds `tab[idx[n / 128], n % 128]`.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KISetup
import Idealize.ShloMosaic.Lib.Writes
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.KernelIdeal
import proofs.«206963_g37203006718649_cont_8to1_b_574_16_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S16384 EltTy.i32)
local notation "hV" => (Memref.whole Cert.KernelIdeal.main_arg1_scv : Memref Cert.KernelIdeal.sig Kind.scVector Space.hbm Cert.KernelIdeal.S1x1x128 EltTy.f32)
local notation "oV" => (Memref.whole Cert.KernelIdeal.main_v0_0_scv : Memref Cert.KernelIdeal.sig Kind.scVector Space.hbm Cert.KernelIdeal.S1x1x2097152 EltTy.f32)
local notation "gV" => (Memref.whole Cert.KernelIdeal.main_v0_1_scv : Memref Cert.KernelIdeal.sig Kind.scVector Space.hbm Cert.KernelIdeal.S1x1x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

variable [FloatOps F]

section Value

variable (d : Dev nD) (L : grid0.Coords)

omit m [FloatOps F] in
/-- Where row `y 0`, column `y 1` of a tile's slab sits in the flat result. -/
theorem oRow_emb_val (y : S512x128.Idx) :
    (((oRowK L).view.emb y) 2).val = (k0_off2 L 0 + (y 0).val) * 128 + (y 1).val := by
  have hr := Shape.rowMajor_reshapeEquiv (s := S1x1x2097152) (s' := S16384x128) reshapes_S1x1x2097152_S16384x128.1
    ((Rect.unit (s := S16384x128) (k0_off2 L) S512x128.size (k0_off2_inb L)).emb y)
  rw [Shape.rowMajor_val_three, Shape.rowMajor_val_two] at hr
  have e0 : ((Shape.reshapeEquiv (s := S1x1x2097152) (s' := S16384x128) reshapes_S1x1x2097152_S16384x128.1
    ((Rect.unit (s := S16384x128) (k0_off2 L) S512x128.size (k0_off2_inb L)).emb y)) 0).val < 1 := Fin.isLt _
  have e1 : ((Shape.reshapeEquiv (s := S1x1x2097152) (s' := S16384x128) reshapes_S1x1x2097152_S16384x128.1
    ((Rect.unit (s := S16384x128) (k0_off2 L) S512x128.size (k0_off2_inb L)).emb y)) 1).val < 1 := Fin.isLt _
  have o1 : k0_off2 L 1 = 0 := by rw [k0_off2_eq]; rfl
  simp only [Rect.emb_apply] at hr
  show ((Shape.reshapeEquiv (s := S1x1x2097152) (s' := S16384x128) reshapes_S1x1x2097152_S16384x128.1
    ((Rect.unit (s := S16384x128) (k0_off2 L) S512x128.size (k0_off2_inb L)).emb y)) 2).val = _
  have hs : (Rect.unit (s := S16384x128) (k0_off2 L) S512x128.size (k0_off2_inb L)).stride = fun _ => 1 := rfl
  have ho : (Rect.unit (s := S16384x128) (k0_off2 L) S512x128.size (k0_off2_inb L)).off = k0_off2 L := rfl
  rw [hs, ho, o1] at hr
  show _ = (k0_off2 L 0 + (y 0).val) * 128 + (y 1).val
  generalize Shape.reshapeEquiv (s := S1x1x2097152) (s' := S16384x128) reshapes_S1x1x2097152_S16384x128.1
    ((Rect.unit (s := S16384x128) (k0_off2 L) S512x128.size (k0_off2_inb L)).emb y) = E at hr e0 e1 ⊢
  have hr' : ((E 0).val * 1 + (E 1).val) * 2097152 + (E 2).val = (k0_off2 L 0 + 1 * (y 0).val) * 128 + (0 + 1 * (y 1).val) := hr
  omega

omit m [FloatOps F] in
/-- Where word `k` of a tile's slab sits in the index array. -/
theorem iRow_emb_val (k : S512.Idx) : (((iRowK L).view.emb k) 0).val = k0_off1 L 0 + (k 0).val := by
  show (Rect.unit (s := S16384) (k0_off1 L) S512.size (k0_off1_inb L)).off 0 + (Rect.unit (s := S16384) (k0_off1 L) S512.size (k0_off1_inb L)).stride 0 * (k 0).val = _
  show k0_off1 L 0 + 1 * (k 0).val = _
  omega

omit m [FloatOps F] in
theorem off_same : k0_off1 L 0 = k0_off2 L 0 := by rw [k0_off1_eq, k0_off2_eq]; rfl

omit m [FloatOps F] in
/-- The table is addressed whole: an index sits at itself. -/
theorem xAll_emb (z : S1000000x128.Idx) : (xAllK).view.emb z = z := by
  funext a; apply Fin.ext
  match a with
  | ⟨0, _⟩ => show 0 + 1 * _ = _; omega
  | ⟨1, _⟩ => show 0 + 1 * _ = _; omega

omit m [FloatOps F] in
/-- The word of a 512-long list at row-major position `k` is word `k`. -/
theorem list_pos (k : Fin 512) (h : S512.numel = 512) : ((S512.rowMajor.symm (Fin.cast h.symm k)) 0).val = k.val := by
  have h1 := Shape.rowMajor_val_one (d := ![512]) (S512.rowMajor.symm (Fin.cast h.symm k))
  rw [← h1]
  show (S512.rowMajor (S512.rowMajor.symm (Fin.cast h.symm k))).val = k.val
  rw [Equiv.apply_symm_apply]; rfl

/-- On a tile's slab the result, after the write-out of the gathered rows, is the lookup. -/
theorem out_value (hpre : PreOK m) (fs : Buf (Elt F) ((V d (cV L) (jV L)).loc cc0_scratch0)) (fr : Buf (Elt F) ((V d (cV L) (jV L)).loc cc0_scratch1))
    (ip : S512.Idx → Elt F .i32) (hip : ip = ReadAs.same.apply (View.read (Elt F) (iRowK L).view (m (iLoc d))))
    (hin : ∀ x, ((sV).view.read (Elt F) (View.write (Elt F) (sV).view fs ip Finset.univ) x).toNat < S1000000x128.size gathers_S1000000x128_S512x128.axis)
    (gp : S512x128.Idx → Elt F .f32)
    (hgp : gp = SparseCore.gatherPayload gathers_S1000000x128_S512x128 (View.read (Elt F) (xAllK).view (m (xLoc d)))
      (SparseCore.rows (View.read (Elt F) (sV).view (View.write (Elt F) (sV).view fs ip Finset.univ)) rfl hin))
    (op : S512x128.Idx → Elt F .f32)
    (hop : op = ReadAs.same.apply (View.read (Elt F) (rV).view ((rV).view.writes (Elt F) fr [⟨Rect.whole S512x128, gp⟩]))) :
    ∀ j ∈ (oRowK L).view.set, (oRowK L).view.writes (Elt F) (m (oLoc d)) [⟨Rect.whole S512x128, op⟩] j = Gout m d j := by
  intro j hj
  obtain ⟨y, -, rfl⟩ := Finset.mem_map.mp hj
  have h1 := View.read_writes_cons_emb (oRowK L).view (m (oLoc d)) (Rect.whole S512x128) op [] y
  rw [Rect.emb_whole_apply, View.read_apply] at h1
  have h1' : (oRowK L).view.writes (Elt F) (m (oLoc d)) [⟨Rect.whole S512x128, op⟩] ((oRowK L).view.emb y) = op y := (cast_eq _ _).symm.trans h1
  refine h1'.trans ?_
  subst hop
  have ew : (Rect.whole S512x128).emb y = y := Rect.emb_whole_apply _ _
  have h2 : View.read (Elt F) (rV).view ((rV).view.writes (Elt F) fr [⟨Rect.whole S512x128, gp⟩]) y = gp y := by
    have h := View.read_writes_cons_emb (rV).view fr (Rect.whole S512x128) gp [] y
    rw [ew] at h; exact h
  refine (show ReadAs.same.apply (View.read (Elt F) (rV).view ((rV).view.writes (Elt F) fr [⟨Rect.whole S512x128, gp⟩])) y = gp y from h2).trans ?_
  subst hgp
  unfold SparseCore.gatherPayload
  refine ((View.read_apply _ _).trans (cast_eq _ _)).trans ?_
  show m (xLoc d) _ = m (xLoc d) _
  refine congrArg (m (xLoc d)) ?_
  have hpre' := hpre d
  have hval := oRow_emb_val L y
  have hy0 : (y 0).val < 512 := (y 0).isLt
  have hy1 : (y 1).val < 128 := (y 1).isLt
  have hoff : k0_off2 L 0 + 512 ≤ 16384 := k0_off2_inb L 0
  -- the row of the table the gather reads for row `y 0` of the scratch: the index word the fetch landed there
  have hrow : ((gathers_S1000000x128_S512x128.idx
      (SparseCore.rows (View.read (Elt F) (sV).view (View.write (Elt F) (sV).view fs ip Finset.univ)) rfl hin) y) 0).val
      = (m (iLoc d) ((iRowK L).view.emb (S512.rowMajor.symm (Fin.cast (rfl : 512 = S512.numel) (y 0))))).toNat := by
    show (View.read (Elt F) (sV).view (View.write (Elt F) (sV).view fs ip Finset.univ) (S512.rowMajor.symm (Fin.cast _ (y 0)))).toNat = _
    rw [View.write_whole_univ]
    simp only [Memref.view_whole, View.read_whole]
    subst hip
    exact congrArg BitVec.toNat ((View.read_apply _ _).trans (cast_eq _ _))
  have hcol : ((gathers_S1000000x128_S512x128.idx
      (SparseCore.rows (View.read (Elt F) (sV).view (View.write (Elt F) (sV).view fs ip Finset.univ)) rfl hin) y) 1).val = (y 1).val := rfl
  -- that index word is the one the lookup reads for this position
  have hidx : (iRowK L).view.emb (S512.rowMajor.symm (Fin.cast (rfl : 512 = S512.numel) (y 0))) = ValueIdx.ix1 (Spec.rowOf ((oRowK L).view.emb y)) := by
    funext a; apply Fin.ext
    match a with
    | ⟨0, _⟩ =>
      refine (iRow_emb_val L _).trans ?_
      rw [list_pos (y 0) rfl, off_same]
      show _ = ((((oRowK L).view.emb y) 2).val / 128)
      rw [hval]; omega
  rw [xAll_emb]
  funext a; apply Fin.ext
  match a with
  | ⟨0, _⟩ =>
    refine hrow.trans ?_
    rw [hidx]
    exact (Spec.rowName_val (hpre' _)).symm
  | ⟨1, _⟩ =>
    refine hcol.trans ?_
    show _ = ((((oRowK L).view.emb y) 2).val % 128)
    rw [hval]; omega

end Value

end Cert.KernelIdeal.Hand

end
-- ==== Proof.KITile.lean ====
/-
  One tile's task, at a symbolic tile: fetch the tile's 512 index words, gather the table rows they name into the
  row scratch, (on the first tile only) copy the second argument into the second result, wait for the gather, write
  the gathered rows to the tile's slab of the result. Four transfers on four semaphores, one at a time on each; the
  gather's list is not touched between its issue and its wait. The tile ends holding its slab of the result at the
  lookup (`Cert.Spec.G`), its index words and its share of the table as it found them.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KISetup
import proofs.«206963_g37203006718649_cont_8to1_b_574_16_alg».proof.Proof.KIValue
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.KernelIdeal
import proofs.«206963_g37203006718649_cont_8to1_b_574_16_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S16384 EltTy.i32)
local notation "hV" => (Memref.whole Cert.KernelIdeal.main_arg1_scv : Memref Cert.KernelIdeal.sig Kind.scVector Space.hbm Cert.KernelIdeal.S1x1x128 EltTy.f32)
local notation "oV" => (Memref.whole Cert.KernelIdeal.main_v0_0_scv : Memref Cert.KernelIdeal.sig Kind.scVector Space.hbm Cert.KernelIdeal.S1x1x2097152 EltTy.f32)
local notation "gV" => (Memref.whole Cert.KernelIdeal.main_v0_1_scv : Memref Cert.KernelIdeal.sig Kind.scVector Space.hbm Cert.KernelIdeal.S1x1x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

variable [FloatOps F]

section Tile

variable (d : Dev nD) (L : grid0.Coords)

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0 ∗ semVal (cCcell d (cV L) (jV L)) 0
          ∗ bigSep (((((ownCells (V d (cV L) (jV L))).erase (cGcell d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩),
    SparseCore.bigSep_erase' (Finset.mem_erase.mpr ⟨by simp [cBcell, cCcell]; decide, Finset.mem_erase.mpr ⟨by simp [cAcell, cCcell]; decide,
      Finset.mem_erase.mpr ⟨by simp [cGcell, cCcell]; decide,
      (mem_ownCells (g := cCcell d (cV L) (jV L))).mpr ⟨rfl, by show (SemLoc.dma cc0_scoped2.sem : SemLoc sig).isScoped .scVector = true; decide⟩⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_iRowK (f : Buf (Elt F) (iLoc d)) :
    ((iRowK L).view.loc (V d (cV L) (jV L)) ↦[(iRowK L).view.set]{fullShare} f : sProp 𝕄) = iLoc d ↦[iSet L]{fullShare} f := rfl
omit [FloatOps F] in
theorem pts_oRowK (f : Buf (Elt F) (oLoc d)) :
    ((oRowK L).view.loc (V d (cV L) (jV L)) ↦[(oRowK L).view.set]{fullShare} f : sProp 𝕄) = oLoc d ↦[oSet L]{fullShare} f := rfl
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_hV (f : Buf (Elt F) (hLoc d)) :
    ((hV).view.loc (V d (cV L) (jV L)) ↦{fullShare} f : sProp 𝕄) = hLoc d ↦{fullShare} f := rfl
omit [FloatOps F] in
theorem pts_gV (f : Buf (Elt F) (gLoc d)) :
    ((gV).view.loc (V d (cV L) (jV L)) ↦{fullShare} f : sProp 𝕄) = gLoc d ↦{fullShare} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The words the gather reads are in range: what the index fetch landed in the index scratch is the tile's
    512 words of the index array, each below the table's 1000000 rows. -/
theorem inb_of_pre (hpre : PreOK m) (fs : Buf (Elt F) ((V d (cV L) (jV L)).loc cc0_scratch0)) (pay : S512.Idx → Elt F .i32)
    (hpay : pay = (iRowK L).view.read (Elt F) (m (iLoc d))) :
    ∀ x, ((sV).view.read (Elt F) (View.write (Elt F) (sV).view fs pay Finset.univ) x).toNat < S1000000x128.size gathers_S1000000x128_S512x128.axis := by
  subst hpay; intro x
  rw [View.write_whole_univ]
  simp only [Memref.view_whole, View.read_whole]
  rw [show ∀ j, (iRowK L).view.read (Elt F) (m (iLoc d)) j = m (iLoc d) ((iRowK L).view.emb j) from fun j => (View.read_apply _ _).trans (cast_eq _ _)]
  exact hpre d _

set_option maxHeartbeats 4000000 in
/-- A tile other than the first. -/
theorem tile_rest (hF : (K (F := F)).Facts) (hpre : PreOK m) (q : PosShare TreeShare) (hfirst : ¬ isFirst L)
    (O : CellTallies nD τ sig (HIx 1)) (W : Waits sig (HIx 1)) (hO : ∀ g, O g none = 0) :
    iprop(levAts (K (F := F)).L (K (F := F)).lev ∗ emp
        ∗ (iRowPts m d L ∗ (xLoc d ↦{q} m (xLoc d)) ∗ oRowPts d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop((iRowPts m d L ∗ (xLoc d ↦{q} m (xLoc d)) ∗ oRowPts d L (Gout m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  -- the index fetch and its wait
  sl_exec
  -- the gather (its list in range by the precondition), its wait, the write-out and its wait
  have hin := inb_of_pre m d L hpre fs (tile_rest.sl.dma0 m d L) rfl
  sl_exec (disch := exact hfirst)
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_value m d L hpre fs fr (tile_rest.sl.dma0 m d L) rfl hin (tile_rest.sl.gather0 m d L fs hin) rfl
      (tile_rest.sl.dma0_1 m d L fs fr hin) rfl)))
    iexact Ho'
  isplitl [Hs' Hr' Hbufs]
  · isplitl [Hs']; · iexists _; iexact Hs'
    isplitl [Hr']; · iexists _; iexact Hr'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

omit [FloatOps F] in
/-- The second result after the first tile's copy: the second argument. -/
theorem hid_value (w : S1x1x128.Idx → Elt F .f32) (hw : w = ReadAs.same.apply (View.read (Elt F) (hV).view (m (hLoc d)))) :
    View.write (Elt F) (gV).view (m (gLoc d)) w Finset.univ = (m (hLoc d) : Buf (Elt F) (gLoc d)) := by
  subst hw
  rw [View.write_whole_univ]
  simp only [Memref.view_whole, View.read_whole]

set_option maxHeartbeats 4000000 in
/-- The first tile: the same, and the copy of the second argument while the gather is in flight. -/
theorem tile_first (hF : (K (F := F)).Facts) (hpre : PreOK m) (q : PosShare TreeShare) (hfirst : isFirst L)
    (O : CellTallies nD τ sig (HIx 1)) (W : Waits sig (HIx 1)) (hO : ∀ g, O g none = 0) :
    iprop(levAts (K (F := F)).L (K (F := F)).lev ∗ emp
        ∗ (iRowPts m d L ∗ (xLoc d ↦{q} m (xLoc d)) ∗ oRowPts d L (m (oLoc d)) ∗ (hLoc d ↦{fullShare} m (hLoc d)) ∗ gLoc d ↦{fullShare} m (gLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_body L xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop((iRowPts m d L ∗ (xLoc d ↦{q} m (xLoc d)) ∗ oRowPts d L (Gout m d) ∗ (hLoc d ↦{fullShare} m (hLoc d))
              ∗ gLoc d ↦{fullShare} (m (hLoc d) : Buf (Elt F) (gLoc d)))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_body_eq_skeleton]; unfold cc0__gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho, Hh, Hg⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hh' := (Entails.of_eq (pts_hV (F := F) d L _).symm) $$ Hh
  ihave Hg' := (Entails.of_eq (pts_gV (F := F) d L _).symm) $$ Hg
  ihave Hs' := (Entails.of_eq (pts_sV (F := F) d L _).symm) $$ Hs
  ihave Hr' := (Entails.of_eq (pts_rV (F := F) d L _).symm) $$ Hr
  sl_exec
  have hin := inb_of_pre m d L hpre fs (tile_first.sl.dma0 m d L) rfl
  sl_exec (disch := exact hfirst)
  sl_step
  isplitl [Hi' Hx' Ho' Hh' Hg']
  · isplitl [Hi']; · iapply (Entails.of_eq (pts_iRowK (F := F) d L _)); iexact Hi'
    isplitl [Hx']; · iexact Hx'
    isplitl [Ho']
    · iapply (Entails.of_eq (pts_oRowK (F := F) d L _))
      iapply (Entails.of_eq (pointsTo_congr (out_value m d L hpre fs fr (tile_first.sl.dma0 m d L) rfl hin (tile_first.sl.gather0 m d L fs hin) rfl
        (tile_first.sl.dma0_2 m d L fs fr hin) rfl)))
      iexact Ho'
    isplitl [Hh']; · iexact Hh'
    iapply (Entails.of_eq (congrArg (fun f => (gLoc d ↦{fullShare} f : sProp 𝕄)) (hid_value m d (tile_first.sl.dma0_1 m d) rfl)))
    iexact Hg'
  isplitl [Hs' Hr' Hbufs]
  · isplitl [Hs']; · iexists _; iexact Hs'
    isplitl [Hr']; · iexists _; iexact Hr'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The obligation -/

section Obl

variable (d : Dev nD)

theorem goL_first (c : Fin 2) (s : Fin 16) (h : isFirst (pt c s)) : goL m d c s
    = iprop(iRowPts m d (pt c s) ∗ xShPts m d c s ∗ oRowPts d (pt c s) (m (oLoc d)) ∗ (hLoc d ↦{fullShare} m (hLoc d)) ∗ gLoc d ↦{fullShare} m (gLoc d)) := by
  show iprop(iRowPts m d (pt c s) ∗ xShPts m d c s ∗ oRowPts d (pt c s) (m (oLoc d)) ∗ hidBefore m d (pt c s)) = _
  unfold hidBefore; rw [if_pos h]
theorem goL_rest (c : Fin 2) (s : Fin 16) (h : ¬ isFirst (pt c s)) : goL m d c s
    = iprop(iRowPts m d (pt c s) ∗ xShPts m d c s ∗ oRowPts d (pt c s) (m (oLoc d)) ∗ emp) := by
  show iprop(iRowPts m d (pt c s) ∗ xShPts m d c s ∗ oRowPts d (pt c s) (m (oLoc d)) ∗ hidBefore m d (pt c s)) = _
  unfold hidBefore; rw [if_neg h]
theorem tdL_first (c : Fin 2) (s : Fin 16) (h : isFirst (pt c s)) : tdL m d c s
    = iprop(iRowPts m d (pt c s) ∗ xShPts m d c s ∗ oRowPts d (pt c s) (Gout m d) ∗ (hLoc d ↦{fullShare} m (hLoc d))
        ∗ gLoc d ↦{fullShare} (m (hLoc d) : Buf (Elt F) (gLoc d))) := by
  show iprop(iRowPts m d (pt c s) ∗ xShPts m d c s ∗ oRowPts d (pt c s) (Gout m d) ∗ hidAfter m d (pt c s)) = _
  unfold hidAfter; rw [if_pos h]
theorem tdL_rest (c : Fin 2) (s : Fin 16) (h : ¬ isFirst (pt c s)) : tdL m d c s
    = iprop(iRowPts m d (pt c s) ∗ xShPts m d c s ∗ oRowPts d (pt c s) (Gout m d) ∗ emp) := by
  show iprop(iRowPts m d (pt c s) ∗ xShPts m d c s ∗ oRowPts d (pt c s) (Gout m d) ∗ hidAfter m d (pt c s)) = _
  unfold hidAfter; rw [if_neg h]

/-- Tile `(c, s)`'s task, from what it is handed to what it hands back. -/
theorem tile_body (hF : (K (F := F)).Facts) (hpre : PreOK m) (c : Fin 2) (s : Fin 16)
    (O : CellTallies nD τ sig (HIx 1)) (W : Waits sig (HIx 1)) (hO : ∀ g, O g none = 0) :
    iprop(levAts (K (F := F)).L (K (F := F)).lev ∗ emp ∗ goL m d c s
        ∗ scopedBufs (V d (cV (pt c s)) (jV (pt c s))) ∗ scopedSems0 (V d (cV (pt c s)) (jV (pt c s))) ∗ owes (V d (cV (pt c s)) (jV (pt c s))) O W)
      ⊢ wp frame (wpE (defs₀ (F := F)) 𝒱₀ (V d (cV (pt c s)) (jV (pt c s))) none) Set.univ
          (cc0__gather_body (pt c s) xV (Memref.isWhole_whole _) iV (Memref.isWhole_whole _) hV (Memref.isWhole_whole _) oV (Memref.isWhole_whole _)
            gV (Memref.isWhole_whole _) sV (Memref.isWhole_whole _) rV (Memref.isWhole_whole _) cc0_scratch2 cc0_scoped0 cc0_scoped1 cc0_scoped2)
          fun _ => iprop(tdL m d c s ∗ scopedBufs (V d (cV (pt c s)) (jV (pt c s))) ∗ scopedSems0 (V d (cV (pt c s)) (jV (pt c s)))
            ∗ ∃ W', ⌜∀ p ∈ W', p ∈ W ∨ p.2 = none⌝ ∗ owes (V d (cV (pt c s)) (jV (pt c s))) O W') := by
  by_cases hfirst : isFirst (pt c s)
  · refine BI.Entails.trans ?_ ((tile_first m d (pt c s) hF hpre (xq c s) hfirst O W hO).trans (wp_mono frame _ _ fun _ => ?_))
    · rw [goL_first m d c s hfirst]
      exact BI.Entails.refl _
    · rw [tdL_first m d c s hfirst]
  · refine BI.Entails.trans ?_ ((tile_rest m d (pt c s) hF hpre (xq c s) hfirst O W hO).trans (wp_mono frame _ _ fun _ => ?_))
    · rw [goL_rest m d c s hfirst]
      show (_ : sProp 𝕄) ⊢ _
      iintro ⟨Hlv, He, ⟨Hi, Hx, Ho, -⟩, Hrest⟩
      isplitl [Hlv]; · iexact Hlv
      isplitl [He]; · iexact He
      isplitr [Hrest]; swap; · iexact Hrest
      isplitl [Hi]; · iexact Hi
      isplitl [Hx]; · iexact Hx
      iexact Ho
    · rw [tdL_rest m d c s hfirst]
      iintro ⟨⟨Hi, Hx, Ho⟩, Hrest⟩
      isplitr [Hrest]; swap; · iexact Hrest
      isplitl [Hi]; · iexact Hi
      isplitl [Hx]; · iexact Hx
      isplitl [Ho]; · iexact Ho
      iempintro

theorem defs₀_vector (c : Fin τ.nSC) (s : Fin τ.nSub) :
    defs₀ (F := F) (.scVector c s) 0 ()
      = SparseCore.onTile hcore0 hsub0 (fun c s => cc0__gather_body (coordsV c s)
          xV (Memref.isWhole_whole _) iV (Memref.isWhole_whole _) hV (Memref.isWhole_whole _) oV (Memref.isWhole_whole _)
          gV (Memref.isWhole_whole _) sV (Memref.isWhole_whole _) rV (Memref.isWhole_whole _) cc0_scratch2 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d hF hpre (Fin.cast nCore_zero c) (Fin.cast nSub_zero i) O W hO).trans (wp_mono frame _ _ fun _ => obl_post)

end Obl

end Cert.KernelIdeal.Hand

end
-- ==== Proof.KILaunch.lean ====
/-
  The launch: the TensorCore hands the five arrays to the two SparseCores, divided among their 32 tiles, waits for
  them, and has the arrays back — the index words, the second argument and the table as they were, the flat result at
  the lookup, the second result at the second argument. From this, the run of the whole family of threads.
-/
import proofs.«206963_g37203006718649_cont_8to1_b_574_16_alg».proof.Defs
import proofs.«206963_g37203006718649_cont_8to1_b_574_16_alg».proof.Proof.Spec
import proofs.«206963_g37203006718649_cont_8to1_b_574_16_alg».proof.Proof.KISetup
import proofs.«206963_g37203006718649_cont_8to1_b_574_16_alg».proof.Proof.KISplit
import proofs.«206963_g37203006718649_cont_8to1_b_574_16_alg».proof.Proof.KITile
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«206963_g37203006718649_cont_8to1_b_574_16_alg».proof.Proof.Gen.KernelIdeal
import proofs.«206963_g37203006718649_cont_8to1_b_574_16_alg».proof.Proof.Gen.KernelIdeal.Skeleton

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_arg2_scv : Memref Cert.KernelIdeal.sig Kind.scVector Space.hbm Cert.KernelIdeal.S1000000x128 EltTy.f32)
local notation "iV" => (Memref.whole Cert.KernelIdeal.main_arg0_scv : Memref Cert.KernelIdeal.sig Kind.scVector Space.hbm Cert.KernelIdeal.S16384 EltTy.i32)
local notation "hV" => (Memref.whole Cert.KernelIdeal.main_arg1_scv : Memref Cert.KernelIdeal.sig Kind.scVector Space.hbm Cert.KernelIdeal.S1x1x128 EltTy.f32)
local notation "oV" => (Memref.whole Cert.KernelIdeal.main_v0_0_scv : Memref Cert.KernelIdeal.sig Kind.scVector Space.hbm Cert.KernelIdeal.S1x1x2097152 EltTy.f32)
local notation "gV" => (Memref.whole Cert.KernelIdeal.main_v0_1_scv : Memref Cert.KernelIdeal.sig Kind.scVector Space.hbm Cert.KernelIdeal.S1x1x128 EltTy.f32)
local notation "sV" => (Memref.whole Cert.KernelIdeal.cc0_scratch0 : Memref Cert.KernelIdeal.sig Kind.scVector Space.vmem Cert.KernelIdeal.S512 EltTy.i32)
local notation "rV" => (Memref.whole Cert.KernelIdeal.cc0_scratch1 : Memref Cert.KernelIdeal.sig Kind.scVector Space.vmem Cert.KernelIdeal.S512x128 EltTy.f32)

variable (m : (ℓ : Loc nD τ sig) → Buf (Elt F) ℓ) (ρ : Dev nD → PrngReg)

variable [FloatOps F]

/-! ## A SparseCore's operands are its tiles' -/

omit m [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit m [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show (bigSep Finset.univ fun s : Fin 16 => goL m d (Fin.cast nCore_zero c) s) ⊢ |={Set.univ}=> iprop(
      (bigSep Finset.univ fun i : Fin ((K (F := F)).nSub 0) => goL m d (Fin.cast nCore_zero c) (Fin.cast nSub_zero i))
      ∗ ((bigSep Finset.univ fun i : Fin ((K (F := F)).nSub 0) => tdL m d (Fin.cast nCore_zero c) (Fin.cast nSub_zero i))
          -∗ bigSep Finset.univ fun s : Fin 16 => tdL m d (Fin.cast nCore_zero c) s))
  rw [bigSep_tasks (F := F) (fun s => goL m d (Fin.cast nCore_zero c) s), bigSep_tasks (F := F) (fun s => tdL m d (Fin.cast nCore_zero c) s)]
  iintro H; imodintro
  isplitl [H]; · iexact H
  iintro H; iexact H

/-! ## The launch element of the ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (hLoc d ↦{fullShare} W main_arg1) ∗ (xLoc d ↦{fullShare} W main_arg2)
      ∗ (oLoc d ↦{fullShare} W main_v0_0) ∗ gLoc d ↦{fullShare} W main_v0_1) := by
  unfold unscopedBufs
  rw [show (Finset.univ.filter fun b : Ref sig .tc => ¬ b.isScoped) = {main_arg0, main_arg1, main_arg2, main_v0_0, main_v0_1} by decide,
    SparseCore.bigSep_insert' (by decide), SparseCore.bigSep_insert' (by decide), SparseCore.bigSep_insert' (by decide),
    SparseCore.bigSep_insert' (by decide), bigSep_singleton]

theorem st0_eq (d : Dev nD) : (bigSep Finset.univ fun c : Fin ((K (F := F)).nCore 0) => (P m).st 0 d c)
    = bigSep Finset.univ fun c : Fin 2 => bigSep Finset.univ fun s : Fin 16 => goL m d c s :=
  bigSep_cores (F := F) (fun c => bigSep Finset.univ fun s : Fin 16 => goL m d c s)
theorem dn0_eq (d : Dev nD) : (bigSep Finset.univ fun c : Fin ((K (F := F)).nCore 0) => (P m).dn 0 d c)
    = bigSep Finset.univ fun c : Fin 2 => bigSep Finset.univ fun s : Fin 16 => tdL m d c s :=
  bigSep_cores (F := F) (fun c => bigSep Finset.univ fun s : Fin 16 => tdL m d c s)

/-- What the tiles take, array by array. -/
theorem go_fam (d : Dev nD) : (bigSep Finset.univ fun c : Fin 2 => bigSep Finset.univ fun s : Fin 16 => goL m d c s)
    = iprop((bigSep Finset.univ fun c : Fin 2 => bigSep Finset.univ fun s : Fin 16 => iRowPts m d (pt c s))
      ∗ (bigSep Finset.univ fun c : Fin 2 => bigSep Finset.univ fun s : Fin 16 => xShPts m d c s)
      ∗ (bigSep Finset.univ fun c : Fin 2 => bigSep Finset.univ fun s : Fin 16 => oRowPts d (pt c s) (m (oLoc d)))
      ∗ (bigSep Finset.univ fun c : Fin 2 => bigSep Finset.univ fun s : Fin 16 => hidBefore m d (pt c s))) := by
  simp only [bigSep_sep']
/-- What they bring back. -/
theorem td_fam (d : Dev nD) : (bigSep Finset.univ fun c : Fin 2 => bigSep Finset.univ fun s : Fin 16 => tdL m d c s)
    = iprop((bigSep Finset.univ fun c : Fin 2 => bigSep Finset.univ fun s : Fin 16 => iRowPts m d (pt c s))
      ∗ (bigSep Finset.univ fun c : Fin 2 => bigSep Finset.univ fun s : Fin 16 => xShPts m d c s)
      ∗ (bigSep Finset.univ fun c : Fin 2 => bigSep Finset.univ fun s : Fin 16 => oRowPts d (pt c s) (Gout m d))
      ∗ (bigSep Finset.univ fun c : Fin 2 => bigSep Finset.univ fun s : Fin 16 => hidAfter m d (pt c s))) := by
  simp only [bigSep_sep']

theorem hidBefore_fam (d : Dev nD) : (bigSep Finset.univ fun c : Fin 2 => bigSep Finset.univ fun s : Fin 16 => hidBefore m d (pt c s))
    = iprop((hLoc d ↦{fullShare} m (hLoc d)) ∗ gLoc d ↦{fullShare} m (gLoc d)) := by
  unfold hidBefore; exact first_fam _
theorem hidAfter_fam (d : Dev nD) : (bigSep Finset.univ fun c : Fin 2 => bigSep Finset.univ fun s : Fin 16 => hidAfter m d (pt c s))
    = iprop((hLoc d ↦{fullShare} m (hLoc d)) ∗ gLoc d ↦{fullShare} (m (hLoc d) : Buf (Elt F) (gLoc d))) := by
  unfold hidAfter; exact first_fam _

/-- What @main leaves the claim: the three arguments as they were, the two results at their values. -/
abbrev FIN (d : Dev nD) : sProp 𝕄 :=
  iprop((iLoc d ↦{fullShare} m (iLoc d)) ∗ (hLoc d ↦{fullShare} m (hLoc d)) ∗ (xLoc d ↦{fullShare} m (xLoc d))
    ∗ (oLoc d ↦{fullShare} Gout m d) ∗ gLoc d ↦{fullShare} (m (hLoc d) : Buf (Elt F) (gLoc d)))

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hh, Hx, Ho, Hg⟩, -, -⟩, -⟩
  ihave Hxs := (xPts_fam (F := F) d _).1 $$ Hx
  icases Hxs with ⟨Hxr, Hxs⟩
  iapply ((K (F := F)).wp_run (D (F := F)) 𝒱 (EH := EH) (P := P m) κ d 0) $$ [Hst Hi Hh Hxs Ho Hg Hxr]
  isplitr; · iexact Hctx
  isplitl [Hst]; · iexact Hst
  isplitl [Hi Hh Hxs Ho Hg]
  · rw [st0_eq, go_fam, hidBefore_fam]
    isplitl [Hi]; · iapply (Entails.of_eq (iPts_fam (F := F) d _)); iexact Hi
    isplitl [Hxs]; · iexact Hxs
    isplitl [Ho]; · iapply (Entails.of_eq (oPts_fam (F := F) d _)); iexact Ho
    isplitl [Hh]; · iexact Hh
    iexact Hg
  iintro ⟨Hst, Hdn⟩
  ihave Hdn' := (Entails.of_eq ((dn0_eq m d).trans ((td_fam m d).trans (congrArg (fun X => iprop(_ ∗ _ ∗ _ ∗ X)) (hidAfter_fam m d))))) $$ Hdn
  icases Hdn' with ⟨Hi, Hxs, Ho, Hh, Hg⟩
  imodintro
  isplitl [Hst]; · iexact Hst
  isplitl [Hi]; · iapply (Entails.of_eq (iPts_fam (F := F) d _).symm); iexact Hi
  isplitl [Hh]; · iexact Hh
  isplitl [Hxr Hxs]
  · iapply (xPts_fam (F := F) d _).2
    isplitl [Hxr]; · iexact Hxr
    iexact Hxs
  isplitl [Ho]; · iapply (Entails.of_eq (oPts_fam (F := F) d _).symm); iexact Ho
  iexact Hg

def fq (d : Dev nD) (s' : Phys nD τ sig (Elt F)) : Prop :=
  s'.mem.mem (oLoc d) = Gout m d ∧ s'.mem.mem (gLoc d) = (m (hLoc d) : Buf (Elt F) (gLoc d))
    ∧ s'.mem.mem (iLoc d) = m (iLoc d) ∧ s'.mem.mem (hLoc d) = m (hLoc d) ∧ s'.mem.mem (xLoc d) = m (xLoc d)

set_option maxRecDepth 16384 in
theorem hfin (d : Dev nD) (s' : Phys nD τ sig (Elt F)) : iprop(FIN m d ∗ SI s') ⊢ (⌜fq m d s'⌝ : sProp 𝕄) := by
  iintro ⟨⟨Hi, Hh, Hx, Ho, Hg⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h3, HSI, -⟩
  ihave H := (persistent_entails_right (SI_pointsTo_agree (st := s') (ℓ := oLoc d) (I := Finset.univ) (q := fullShare) (f := Gout m d))) $$ [HSI Ho]
  · isplitl [HSI] <;> iassumption
  icases H with ⟨%h4, HSI, -⟩
  ihave H := (SI_pointsTo_agree (st := s') (ℓ := gLoc d) (I := Finset.univ) (q := fullShare) (f := (m (hLoc d) : Buf (Elt F) (gLoc d)))) $$ [HSI Hg]
  · isplitl [HSI] <;> iassumption
  icases H with %h5
  ipureintro
  exact ⟨funext fun i => h4 i (Finset.mem_univ i), funext fun i => h5 i (Finset.mem_univ i), funext fun i => h1 i (Finset.mem_univ i),
    funext fun i => h2 i (Finset.mem_univ i), funext fun i => h3 i (Finset.mem_univ i)⟩

/-! ## The program's run -/

def QC : PUnit × MemSt nD τ sig (Elt F) → Prop := fun r => ∀ c : Dev nD,
  r.2.mem (oLoc c) = Gout m c ∧ r.2.mem (gLoc c) = (m (hLoc c) : Buf (Elt F) (gLoc c))
    ∧ r.2.mem (iLoc c) = m (iLoc c) ∧ r.2.mem (hLoc c) = m (hLoc c) ∧ r.2.mem (xLoc c) = m (xLoc c)

/-- Every weakly fair execution of the device's threads terminates, nothing faulting, with the flat result at the
    lookup, the second result at the second argument, and the three arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.KernelIdeal.Hand

end
-- ==== Proof.RefOps.lean ====
/-
  The reference program as a straight line. Its @main broadcasts the index array to one row, calls the
  lookup function on the table and that row, and reshapes the function's result flat. The lookup function
  is itself a straight line, but for one call of a one-line select function. Unfolding the two calls at
  their sites gives twenty-six operations in order, each writing a buffer of its own; the program is
  that list run in sequence, so its final memory is the fold of the operations' results over the
  launch contents.
-/
import proofs.«206963_g37203006718649_cont_8to1_b_574_16_alg».proof.Proof.Gen.ReferenceIdeal
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

/-- @main's operations in order, the two calls unfolded: the row broadcast; the lookup function's
    twenty-four (the sign test and the wrapped index, the select function's one line choosing between
    them, the index as a column, the two range tests and their conjunction reduced over the unit axis,
    the gather, the mask and the fill constant broadcast, the final select); the flat reshape. -/
abbrev ops : List (HloOp τ sig (Elt F)) :=
  [ unary main_arg0 main_v0 (broadcastInDim S1x16384 ![1] bcast_S16384_S1x16384_1 : (⟨S16384, .i32⟩ : BufTy).Contents (Elt F) → (⟨S1x16384, .i32⟩ : BufTy).Contents (Elt F)),
    TRef.nullary main_call0.c (constantI S_ 32 0#32),
    TRef.unary main_call0.c main_call0.v0 (broadcastInDim S1x16384 ![] bcast_S_S1x16384),
    TRef.binary (.of main_v0) main_call0.v0 main_call0.v1 (cmpi .slt),
    TRef.nullary main_call0.c_0 (constantI S_ 32 1000000#32),
    TRef.unary main_call0.c_0 main_call0.v2 (broadcastInDim S1x16384 ![] bcast_S_S1x16384),
    TRef.binary (.of main_v0) main_call0.v2 main_call0.v3 addi,
    TRef.ternary main_call0.v1 main_call0.v3 (.of main_v0) main_call0.call0.v0 select,
    TRef.unary main_call0.call0.v0 main_call0.v5 (broadcastInDim S1x16384x1 ![0, 1] bcast_S1x16384_S1x16384x1_0_1),
    TRef.nullary main_call0.c_1 (constantI S1 32 999999#32),
    TRef.nullary main_call0.c_2 (constantI S_ 32 0#32),
    TRef.unary main_call0.c_2 main_call0.v6 (broadcastInDim S1x16384x1 ![] bcast_S_S1x16384x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1x16384x1 ![0, 1, 2] bcast_S1x1x1_S1x16384x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1x16384x1_S1x16384_d2 h_S_),
    TRef.binary (.of main_arg2) main_call0.v5 main_call0.v13 (fun x i => Host.gather gather_S1000000x128_S1x16384x1_S1x16384x128_2_0_n_n_0_2_1128 x i),
    TRef.unary main_call0.v12 main_call0.v14 (broadcastInDim S1x16384x128 ![0, 1] bcast_S1x16384_S1x16384x128_0_1),
    TRef.nullary main_call0.cst (constant S_ .f32 0x7FC00000#32),
    TRef.unary main_call0.cst main_call0.v15 (broadcastInDim S1x16384x128 ![] bcast_S_S1x16384x128),
    TRef.ternary main_call0.v14 main_call0.v13 main_call0.v15 main_call0.v16 select,
    reshape main_v1 main_v2 rfl shapeCasts_S1x16384x128_S1x1x2097152 ]

-- the binds of the unfolded calls are re-associated one statement at a time
set_option maxRecDepth 1024 in
/-- @main is that straight line: with the two functions' definitions unfolded at their calls, both sides
    are one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    reshape_bufs_sub ..⟩

/-- From any memory with zero counters every weakly fair execution of @main terminates, and every final
    state has each buffer at the fold of the operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  The value the reference computes, and that it is the flat lookup.

  The reference's result is a composition of whole-array operations on the index array and the table:
  the indices as one row; a fix-up that adds the table's height to a negative index; the row as a column
  of start indices; a gather of table rows at those start indices, each clamped into the table; a mask,
  per looked-up row, saying the start index lay inside the table, under which the gathered row is kept
  and outside which it is replaced by a fill constant; and a row-major reshape of the rows laid end to
  end. When every index word, read as a natural number, is below the table's height, the word is
  nonnegative as a signed integer, so the fix-up leaves it alone, the clamp is the identity, and the mask
  is all ones, so no fill constant is ever chosen. Entry (0, b, k) before the reshape is then the
  table's entry at row idx[b] and column k, and flat position n after it reads (0, n / 128, n % 128).
-/
import proofs.«206963_g37203006718649_cont_8to1_b_574_16_alg».proof.Proof.Gen.ReferenceIdeal
import proofs.«206963_g37203006718649_cont_8to1_b_574_16_alg».proof.Proof.Spec
import Idealize.ShloMosaic.Lib.ValueIdx
import Idealize.ShloMosaic.Lib.Pipeline.Value
import Idealize.ShloMosaic.Lib.Affine
import Idealize.ShloMosaic.PureOps.Reduce

noncomputable section

namespace Cert.ReferenceIdeal.RefValue

open Cert.ReferenceIdeal Cert.ReferenceIdeal.Facts₀ Idealize.ShloMosaic Idealize.ShloMosaic.ValueIdx

/-! ## Words below the table's height -/

/-- A word below 1000000 as a natural number has its top bit clear: read signed, it is that number. -/
theorem toInt_of_lt {w : BitVec 32} (h : w.toNat < 1000000) : w.toInt = (w.toNat : Int) := by
  rw [BitVec.toInt_eq_toNat_cond]
  split <;> omega

/-- Such a word is not negative … -/
theorem slt_zero_of_lt {w : BitVec 32} (h : w.toNat < 1000000) : IntOp.cmpi .slt w 0#32 = 0#1 := by
  refine eq_zero_of_ne_one fun h1 => ?_
  have h2 := IntOp.cmpi_slt.1 h1
  have e0 : (0#32 : BitVec 32).toInt = 0 := by decide
  rw [toInt_of_lt h, e0] at h2
  omega

/-- … it is at least zero … -/
theorem sge_zero_of_lt {w : BitVec 32} (h : w.toNat < 1000000) : IntOp.cmpi .sge w 0#32 = 1#1 := by
  refine IntOp.cmpi_sge.2 ?_
  have e0 : (0#32 : BitVec 32).toInt = 0 := by decide
  rw [toInt_of_lt h, e0]
  omega

/-- … and at most 999999. -/
theorem sle_of_lt {w : BitVec 32} (h : w.toNat < 1000000) : IntOp.cmpi .sle w 999999#32 = 1#1 := by
  refine IntOp.cmpi_sle.2 ?_
  have e1 : (999999#32 : BitVec 32).toInt = 999999 := by decide
  rw [toInt_of_lt h, e1]
  omega

/-- The gather's clamp of its signed reading into the table is the identity on it. -/
theorem clamp_of_lt {w : BitVec 32} (h : w.toNat < 1000000) : min w.toInt.toNat 999999 = w.toNat := by
  rw [toInt_of_lt h, Int.toNat_natCast]
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

variable {F : FTy → Type} [FloatOps F] [Cert.ReferenceIdeal.Facts]

/-! ## The stages -/

/-- The index array as one row. -/
def row (idx : IVec S16384 32) : IVec S1x16384 32 := broadcastInDim S1x16384 ![1] bcast_S16384_S1x16384_1 idx

/-- The negative-index fix-up: a negative index has the table's height added. -/
def fixed (r : IVec S1x16384 32) : IVec S1x16384 32 :=
  select (cmpi .slt r (broadcastInDim S1x16384 ![] bcast_S_S1x16384 (constantI S_ 32 0#32)))
    (addi r (broadcastInDim S1x16384 ![] bcast_S_S1x16384 (constantI S_ 32 1000000#32))) r

/-- The row as a column of start indices. -/
def col (r : IVec S1x16384 32) : IVec S1x16384x1 32 :=
  broadcastInDim S1x16384x1 ![0, 1] bcast_S1x16384_S1x16384x1_0_1 r

/-- Per start index: does it lie inside the table? -/
def inb (c : IVec S1x16384x1 32) : IVec S1x16384x1 1 :=
  andi (cmpi .sge c (broadcastInDim S1x16384x1 ![] bcast_S_S1x16384x1 (constantI S_ 32 0#32)))
    (cmpi .sle c (broadcastInDim S1x16384x1 ![0, 1, 2] bcast_S1x1x1_S1x16384x1_0_1_2
      (broadcastInDim S1x1x1 ![2] bcast_S1_S1x1x1_2 (constantI S1 32 999999#32))))

/-- That test reduced by `and` over the unit axis: one bit per looked-up row. -/
def mask (c : IVec S1x16384x1 32) : IVec S1x16384 1 :=
  Host.reduce IntOp.andi (inb c) (constantI S_ 1 1#1) reducesTo_S1x16384x1_S1x16384_d2 h_S_

/-- The gathered rows, each kept where its start index lay inside the table and replaced by the fill
    constant elsewhere. -/
def taken (tab : FVec F S1000000x128 .f32) (c : IVec S1x16384x1 32) : FVec F S1x16384x128 .f32 :=
  select (broadcastInDim S1x16384x128 ![0, 1] bcast_S1x16384_S1x16384x128_0_1 (mask c))
    (Host.gather gather_S1000000x128_S1x16384x1_S1x16384x128_2_0_n_n_0_2_1128 tab c)
    (broadcastInDim S1x16384x128 ![] bcast_S_S1x16384x128 (constant S_ .f32 0x7FC00000#32))

/-- The reference's result: the operations composed, as the program applies them. -/
def refVal (idx : IVec S16384 32) (tab : FVec F S1000000x128 .f32) : FVec F S1x1x2097152 .f32 :=
  shapeCast S1x1x2097152 (taken tab (col (fixed (row idx)))) shapeCasts_S1x16384x128_S1x1x2097152

/-! ## Each stage read at an index -/

/-- Entry `b` of the row is index word `b`. -/
theorem row_apply (idx : IVec S16384 32) (b : Fin 16384) : row idx (ix2 (0 : Fin 1) b) = idx (ix1 b) := by
  unfold row
  exact broadcastInDim_apply _ _ idx _ (ix1 b) (fun a => by match a with | ⟨0, _⟩ => rfl)

/-- Every index of the row is `(0, b)`. -/
theorem row_idx (j : S1x16384.Idx) : ∃ b : Fin 16384, j = ix2 (0 : Fin 1) b :=
  ⟨j 1, funext fun a => by
    match a with
    | ⟨0, _⟩ =>
      have h0 : (j 0).val < 1 := (j 0).isLt
      exact Fin.ext (by show (j 0).val = 0; omega)
    | ⟨1, _⟩ => rfl⟩

/-- The fix-up leaves a word below the table's height as it is. -/
theorem fixed_apply_of_lt (r : IVec S1x16384 32) (j : S1x16384.Idx) (h : (r j).toNat < 1000000) : fixed r j = r j := by
  show Scalar.select (IntOp.cmpi .slt (r j) 0#32) (IntOp.addi (r j) 1000000#32) (r j) = r j
  rw [slt_zero_of_lt h, select_zero]

/-- Entry `(0, b, 0)` of the column is entry `(0, b)` of the row. -/
theorem col_apply (r : IVec S1x16384 32) (b : Fin 16384) :
    col r (ix3 (0 : Fin 1) b (0 : Fin 1)) = r (ix2 (0 : Fin 1) b) := by
  unfold col
  exact broadcastInDim_apply _ _ r _ (ix2 (0 : Fin 1) b) (fun a => by match a with | ⟨0, _⟩ => rfl | ⟨1, _⟩ => rfl)

/-- Every index of the column is `(0, b, 0)`. -/
theorem col_idx (i : S1x16384x1.Idx) : ∃ b : Fin 16384, i = ix3 (0 : Fin 1) b (0 : Fin 1) :=
  ⟨i 1, funext fun a => by
    match a with
    | ⟨0, _⟩ =>
      have h0 : (i 0).val < 1 := (i 0).isLt
      exact Fin.ext (by show (i 0).val = 0; omega)
    | ⟨1, _⟩ => rfl
    | ⟨2, _⟩ =>
      have h2 : (i 2).val < 1 := (i 2).isLt
      exact Fin.ext (by show (i 2).val = 0; omega)⟩

/-- A start index below the table's height passes both range tests. -/
theorem inb_apply_of_lt (c : IVec S1x16384x1 32) (i : S1x16384x1.Idx) (h : (c i).toNat < 1000000) : inb c i = 1#1 := by
  show IntOp.andi (IntOp.cmpi .sge (c i) 0#32) (IntOp.cmpi .sle (c i) 999999#32) = 1#1
  rw [sge_zero_of_lt h, sle_of_lt h]
  decide

/-- With every start index below the table's height the mask is all ones. -/
theorem mask_eq_one (c : IVec S1x16384x1 32) (h : ∀ i, (c i).toNat < 1000000) (j : S1x16384.Idx) : mask c j = 1#1 := by
  unfold mask
  rw [Host.reduce_eq_foldl]
  exact foldl_andi_one _ (fun i => inb_apply_of_lt c i (h i)) _

/-- THE GATHER READ AT `(0, b, k)`: the table at the row the start index `(0, b, 0)` names, read signed and
    clamped into the table, and column `k`. The start index map names the table's row axis, which is
    collapsed; the column axis is the one offset axis, read off the result's last coordinate. -/
theorem gather_apply {α : Type} (x : S1000000x128.Idx → α) (c : IVec S1x16384x1 32) (b : Fin 16384) (k : Fin 128) :
    Host.gather gather_S1000000x128_S1x16384x1_S1x16384x128_2_0_n_n_0_2_1128 x c (ix3 (0 : Fin 1) b k)
      = x (ix2 ⟨min (c (ix3 (0 : Fin 1) b (0 : Fin 1))).toInt.toNat 999999, by omega⟩ k) := by
  unfold Host.gather
  congr 1
  funext a
  refine Fin.ext ?_
  match a with
  | ⟨0, _⟩ =>
    show gather_S1000000x128_S1x16384x1_S1x16384x128_2_0_n_n_0_2_1128.start (ix3 (0 : Fin 1) b k) c 0
      + gather_S1000000x128_S1x16384x1_S1x16384x128_2_0_n_n_0_2_1128.batchCoord (ix3 (0 : Fin 1) b k) 0
      + gather_S1000000x128_S1x16384x1_S1x16384x128_2_0_n_n_0_2_1128.offCoord (ix3 (0 : Fin 1) b k) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin S1000000x128.rank) ∈ gather_S1000000x128_S1x16384x1_S1x16384x128_2_0_n_n_0_2_1128.startIndexMap
      from List.mem_singleton.mpr rfl)]
    have hsi : gather_S1000000x128_S1x16384x1_S1x16384x128_2_0_n_n_0_2_1128.siIdx (ix3 (0 : Fin 1) b k)
        ⟨List.idxOf (0 : Fin S1000000x128.rank) gather_S1000000x128_S1x16384x1_S1x16384x128_2_0_n_n_0_2_1128.startIndexMap,
          List.idxOf_lt_length_iff.2 (List.mem_singleton.mpr rfl)⟩ = ix3 (0 : Fin 1) b (0 : Fin 1) := by
      funext e; refine Fin.ext ?_
      match e with
      | ⟨0, _⟩ => rfl
      | ⟨1, _⟩ => rfl
      | ⟨2, _⟩ => rfl
    rw [hsi]
    rfl
  | ⟨1, _⟩ =>
    show gather_S1000000x128_S1x16384x1_S1x16384x128_2_0_n_n_0_2_1128.start (ix3 (0 : Fin 1) b k) c 1
      + gather_S1000000x128_S1x16384x1_S1x16384x128_2_0_n_n_0_2_1128.batchCoord (ix3 (0 : Fin 1) b k) 1
      + gather_S1000000x128_S1x16384x1_S1x16384x128_2_0_n_n_0_2_1128.offCoord (ix3 (0 : Fin 1) b k) 1 = _
    rw [GatherDims.batchCoord_eq_zero _ _ _ List.not_mem_nil]
    have hs : gather_S1000000x128_S1x16384x1_S1x16384x128_2_0_n_n_0_2_1128.start (ix3 (0 : Fin 1) b k) c 1 = 0 := by
      unfold GatherDims.start
      exact dif_neg (by decide)
    have ho : gather_S1000000x128_S1x16384x1_S1x16384x128_2_0_n_n_0_2_1128.offCoord (ix3 (0 : Fin 1) b k) 1 = k.val := by
      unfold GatherDims.offCoord
      rw [dif_pos (by decide)]
      rfl
    rw [hs, ho]
    exact Nat.zero_add _

/-- With every start index below the table's height, entry `(0, b, k)` of the looked-up rows is the table's
    at the row that start index names and column `k`: the mask keeps the gathered row, and the clamp does nothing. -/
theorem taken_apply (tab : FVec F S1000000x128 .f32) (c : IVec S1x16384x1 32) (h : ∀ i, (c i).toNat < 1000000)
    (b : Fin 16384) (k : Fin 128) :
    taken tab c (ix3 (0 : Fin 1) b k) = tab (ix2 ⟨(c (ix3 (0 : Fin 1) b (0 : Fin 1))).toNat, h _⟩ k) := by
  unfold taken
  rw [select_apply]
  have hm : broadcastInDim S1x16384x128 ![0, 1] bcast_S1x16384_S1x16384x128_0_1 (mask c) (ix3 (0 : Fin 1) b k) = 1#1 :=
    mask_eq_one c h _
  rw [hm, select_one, gather_apply]
  exact congrArg (fun r : Fin 1000000 => tab (ix2 r k)) (Fin.ext (clamp_of_lt (h _)))

/-! ## The composition is the flat lookup -/

/-- With every index word below the table's height, the reference's result is the flat lookup. -/
theorem refVal_eq_G (idx : IVec S16384 32) (tab : FVec F S1000000x128 .f32) (h : Cert.Spec.InRange idx) :
    refVal idx tab = Cert.Spec.G idx tab := by
  have hrow : ∀ j, (row idx j).toNat < 1000000 := fun j => by
    obtain ⟨b, rfl⟩ := row_idx j
    rw [row_apply]; exact h _
  have hfix : fixed (row idx) = row idx := funext fun j => fixed_apply_of_lt _ j (hrow j)
  have hcol : ∀ i, (col (row idx) i).toNat < 1000000 := fun i => by
    obtain ⟨b, rfl⟩ := col_idx i
    rw [col_apply]; exact hrow _
  funext j
  unfold refVal
  rw [hfix]
  rw [shapeCast_apply _ _ j (ix3 (0 : Fin 1) (Cert.Spec.rowOf j) (Cert.Spec.colOf j)) (by
    rw [Shape.rowMajor_val_three, Shape.rowMajor_val_three]
    have h0 : (j 0).val < 1 := (j 0).isLt
    have h1 : (j 1).val < 1 := (j 1).isLt
    show ((0 : Fin 1).val * 16384 + (j 2).val / 128) * 128 + (j 2).val % 128 = ((j 0).val * 1 + (j 1).val) * 2097152 + (j 2).val
    have hz : (0 : Fin 1).val = 0 := rfl
    omega)]
  rw [taken_apply tab _ hcol]
  unfold Cert.Spec.G
  refine congrArg (fun r : Fin 1000000 => tab (ix2 r (Cert.Spec.colOf j))) (Fin.ext ?_)
  show (col (row idx) (ix3 (0 : Fin 1) (Cert.Spec.rowOf j) (0 : Fin 1))).toNat = (Cert.Spec.rowName (idx (ix1 (Cert.Spec.rowOf j)))).val
  rw [col_apply, row_apply, Cert.Spec.rowName_val (h _)]

end Cert.ReferenceIdeal.RefValue

end
-- ==== Proof.RefRun.lean ====
/-
  The reference's run, with its result named by the flat lookup.

  The program is a straight line of twenty-six operations, so every execution ends with each buffer at
  the fold of the operations' results over the launch contents. At the result buffer that fold is the
  composition of the operations applied to the index array and the table; at an argument buffer, which no
  operation writes, it is what was there. When every index word is below the table's height the
  composition is the flat lookup.
-/
import proofs.«206963_g37203006718649_cont_8to1_b_574_16_alg».proof.Proof.RefOps
import proofs.«206963_g37203006718649_cont_8to1_b_574_16_alg».proof.Proof.RefValue

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Cert.ReferenceIdeal.Facts]

-- the reduction and the gather are folds and searches over their operands' elements; the equation below never looks
-- inside them, so they stay folded while the fold over the operations is computed
attribute [local irreducible] Host.reduce Host.gather in
set_option maxRecDepth 8192 in
set_option maxHeartbeats 400000 in
/-- The fold at the result buffer is the composition: unrolled, each operation's result at the buffer it writes is
    its function of its operands' contents and at any other buffer what was there; the transports between a
    buffer's contents and a value's type are the identity at these literal buffers. What is left is the stages
    written out. -/
theorem out_eq (V : Valuation τ sig (Elt F)) :
    after ops V (main_v2 : DevRef τ sig) = refVal (F := F) (V (main_arg0 : DevRef τ sig)) (V (main_arg2 : DevRef τ sig)) := by
  after_results_simp
  simp only [TRef.toBuf, TRef.ofBuf, cast_eq]
  unfold refVal taken mask inb col fixed row
  rfl

/-- No operation writes the index array … -/
theorem arg0_eq (V : Valuation τ sig (Elt F)) : after ops V (main_arg0 : DevRef τ sig) = V (main_arg0 : DevRef τ sig) := by
  simp only [after_cons, after_nil]
  rfl

/-- … nor the second argument … -/
theorem arg1_eq (V : Valuation τ sig (Elt F)) : after ops V (main_arg1 : DevRef τ sig) = V (main_arg1 : DevRef τ sig) := by
  simp only [after_cons, after_nil]
  rfl

/-- … nor the table. -/
theorem arg2_eq (V : Valuation τ sig (Elt F)) : after ops V (main_arg2 : DevRef τ sig) = V (main_arg2 : DevRef τ sig) := by
  simp only [after_cons, after_nil]
  rfl

/-- On every device, from any memory with zero counters whose index words are all below the table's height:
    every weakly fair execution of @main terminates with the result buffer at the flat lookup of the launch's
    index array and table, and the three arguments unchanged. -/
theorem run (m : (ℓ : Loc nD τ sig) → Buf (Elt F) ℓ) (ρ : Dev nD → PrngReg)
    (hin : ∀ c : Dev nD, Cert.Spec.InRange (m ((c.tc : Thread nD τ).loc main_arg0))) :
    θ_run (defs (F := F)) (onTc (τ := τ) (main (F := F))) ⟨m, fun _ => 0, ρ⟩
      (fun r => ∀ c : Dev nD,
        r.2.mem ((c.tc : Thread nD τ).loc main_v2)
            = Cert.Spec.G (F := F) (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun _ h c =>
      ⟨(h c main_v2).trans ((out_eq _).trans (refVal_eq_G _ _ (hin c))),
        (h c main_arg0).trans (arg0_eq _),
        (h c main_arg1).trans (arg1_eq _),
        (h c main_arg2).trans (arg2_eq _)⟩)
    (run_main m ρ)

end Cert.ReferenceIdeal.RefValue

end
-- ==== Proof.lean ====
/-
  The five claims, assembled. The kernel is an embedding lookup spread over 32 tiles: tile `w` fetches index words
  `512 w … 512 w + 511`, gathers the table rows they name, and writes them to rows `512 w …` of the result read as a
  16384 × 128 matrix; the first tile also copies the second argument to the second result. The reference takes the
  same rows with a clamped, masked gather; under the precondition (every index word in `[0, 999999]`) the mask is all
  ones and the clamp is the identity. Both sides end with the flat result at ONE function of the arguments,
  `Cert.Spec.G`: entry `n` is `tab[idx[n / 128], n % 128]`; no arithmetic on the table's entries is done on either
  side, so the float precondition is never used. Each program's frame is its run with the values dropped; the
  idealization rewrote nothing, so `preserves` is trivial.
-/
import proofs.«206963_g37203006718649_cont_8to1_b_574_16_alg».proof.Defs
import proofs.«206963_g37203006718649_cont_8to1_b_574_16_alg».proof.Proof.Gen.Kernel
import proofs.«206963_g37203006718649_cont_8to1_b_574_16_alg».proof.Proof.Gen.Kernel.Skeleton
import proofs.«206963_g37203006718649_cont_8to1_b_574_16_alg».proof.Proof.Gen.KernelIdeal
import proofs.«206963_g37203006718649_cont_8to1_b_574_16_alg».proof.Proof.Gen.KernelIdeal.Skeleton
import proofs.«206963_g37203006718649_cont_8to1_b_574_16_alg».proof.Proof.Gen.ReferenceIdeal
import proofs.«206963_g37203006718649_cont_8to1_b_574_16_alg».proof.Proof.Gen.Pre_input_domain
import proofs.«206963_g37203006718649_cont_8to1_b_574_16_alg».proof.Proof.Spec
import proofs.«206963_g37203006718649_cont_8to1_b_574_16_alg».proof.Proof.PreRange
import proofs.«206963_g37203006718649_cont_8to1_b_574_16_alg».proof.Proof.KLaunch
import proofs.«206963_g37203006718649_cont_8to1_b_574_16_alg».proof.Proof.KILaunch
import proofs.«206963_g37203006718649_cont_8to1_b_574_16_alg».proof.Proof.RefRun
import Idealize.ShloMosaic.Adequacy
import Idealize.ShloMosaic.Init

noncomputable section

namespace Cert.Proof

open Idealize.ShloMosaic Idealize.SL.Sem

/-- The precondition puts every index word in the table's range: for the printed kernel, -/
theorem preOK_kernel (m : (ℓ : Loc Cert.Kernel.nD Cert.Kernel.τ Cert.Kernel.sig) → Buf (Elt Bits) ℓ) (h : Cert.Pre_Kernel m) :
    Cert.Kernel.Hand.PreOK (F := Bits) m :=
  fun d => Cert.Spec.inRange_of_pre (F := Bits) _ _ _ (h d)

/-- and for its idealization. -/
theorem preOK_kernelIdeal (m : (ℓ : Loc Cert.KernelIdeal.nD Cert.KernelIdeal.τ Cert.KernelIdeal.sig) → Buf (Elt Ideal) ℓ) (h : Cert.Pre_KernelIdeal m) :
    Cert.KernelIdeal.Hand.PreOK (F := Ideal) m :=
  fun d => Cert.Spec.inRange_of_pre (F := Ideal) _ _ _ (h d)

theorem frame_k : Cert.frame_Kernel := fun m ρ hpre =>
  (θ_run Cert.Kernel.defs _ _).mono (fun _ h c => ⟨(h c).2.2.1, (h c).2.2.2.1, (h c).2.2.2.2⟩)
    (Cert.Kernel.Hand.run_main (F := Bits) m ρ (preOK_kernel m hpre))

theorem frame_ki : Cert.frame_KernelIdeal := fun m ρ hpre =>
  (θ_run Cert.KernelIdeal.defs _ _).mono (fun _ h c => ⟨(h c).2.2.1, (h c).2.2.2.1, (h c).2.2.2.2⟩)
    (Cert.KernelIdeal.Hand.run_main (F := Ideal) m ρ (preOK_kernelIdeal m hpre))

theorem frame_ri : Cert.frame_ReferenceIdeal := fun m ρ hpre =>
  (θ_run Cert.ReferenceIdeal.defs _ _).mono (fun _ h c => (h c).2)
    (Cert.ReferenceIdeal.RefValue.run m ρ (fun c => Cert.Spec.inRange_of_pre (F := Ideal) _ _ _ (hpre c)))

theorem preserves : Cert.preserves_Kernel_KernelIdeal := trivial

/-- Both idealized programs end with the flat result at the lookup of the (agreeing) arguments and the second result
    at the second argument. -/
theorem algebraic : Cert.algebraic_KernelIdeal_ReferenceIdeal := by
  intro m ρ m' ρ' hpre hagree
  have hok := preOK_kernelIdeal m hpre
  refine ⟨fun c => Cert.KernelIdeal.Hand.Gout (F := Ideal) m c, fun c => m (Cert.KernelIdeal.Hand.hLoc c), ?_, ?_⟩
  · exact (θ_run Cert.KernelIdeal.defs _ _).mono (fun _ h c => ⟨(h c).1, (h c).2.1, (h c).2.2.1, (h c).2.2.2.1, (h c).2.2.2.2⟩)
      (Cert.KernelIdeal.Hand.run_main (F := Ideal) m ρ hok)
  · refine (θ_run Cert.ReferenceIdeal.defs _ _).mono (fun _ h c => ⟨?_, ?_, (h c).2⟩)
      (Cert.ReferenceIdeal.RefValue.run m' ρ' (fun c => by rw [(hagree c).1]; exact hok c))
    · rw [(h c).1, (hagree c).1, (hagree c).2.2]
    · rw [(h c).2.2.1, (hagree c).2.1]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
